-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : FVec F S256x256 .f32) (main_arg3 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩
abbrev S1x256 : Shape := ⟨2, ![1, 256]⟩
abbrev S512x4096 : Shape := ⟨2, ![512, 4096]⟩
abbrev S512x256 : Shape := ⟨2, ![512, 256]⟩

abbrev nBuf : Space → Nat
  | .hbm => 18
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4096x256, .f32⟩
  | .hbm, ⟨7, _⟩ => ⟨S_, .i32⟩
  | .hbm, ⟨8, _⟩ => ⟨S_, .f32⟩
  | .hbm, ⟨9, _⟩ => ⟨S4096x4096, .f32⟩
  | .hbm, ⟨10, _⟩ => ⟨S_, .i32⟩
  | .hbm, ⟨11, _⟩ => ⟨S_, .f32⟩
  | .hbm, ⟨12, _⟩ => ⟨S256x256, .f32⟩
  | .hbm, ⟨13, _⟩ => ⟨S1x256, .f32⟩
  | .hbm, ⟨14, _⟩ => ⟨S_, .i32⟩
  | .hbm, ⟨15, _⟩ => ⟨S_, .f32⟩
  | .hbm, ⟨16, _⟩ => ⟨S1x256, .f32⟩
  | .hbm, ⟨17, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S256x256, .f32⟩
  | .local _ .vmem, ⟨4, _⟩ => ⟨S1x256, .f32⟩
  | .local _ .vmem, ⟨5, _⟩ => ⟨S512x256, .f32⟩
  | .local _ .vmem, ⟨6, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_call3_v0 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S4096x256_S4096x256_000_000 : S4096x256.Pads (![0, 0] : Fin 2 → Nat) ![0, 0] ![0, 0] S4096x256
  h_S_ : 0 < S_.numel
  pads_S4096x4096_S4096x4096_000_000 : S4096x4096.Pads (![0, 0] : Fin 2 → Nat) ![0, 0] ![0, 0] S4096x4096
  pads_S256x256_S256x256_000_000 : S256x256.Pads (![0, 0] : Fin 2 → Nat) ![0, 0] ![0, 0] S256x256
  shapeCasts_S256_S1x256 : S256.ShapeCasts S1x256
  pads_S1x256_S1x256_000_000 : S1x256.Pads (![0, 0] : Fin 2 → Nat) ![0, 0] ![0, 0] S1x256
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x256.size a
  hwx0_4 : ∀ i : grid0.Coords, EltTy.bits .f32 = 32 ∨ (Rect.block (s := S4096x256) S512x256.size (cc0_transform_4 i) (hinb0_4 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩
abbrev S1x256 : Shape := ⟨2, ![1, 256]⟩

abbrev nBuf : Space → Nat
  | .hbm => 19
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4096x256, .f32⟩
  | .hbm, ⟨7, _⟩ => ⟨S_, .i32⟩
  | .hbm, ⟨8, _⟩ => ⟨S_, .f32⟩
  | .hbm, ⟨9, _⟩ => ⟨S4096x4096, .f32⟩
  | .hbm, ⟨10, _⟩ => ⟨S_, .i32⟩
  | .hbm, ⟨11, _⟩ => ⟨S_, .f32⟩
  | .hbm, ⟨12, _⟩ => ⟨S256x256, .f32⟩
  | .hbm, ⟨13, _⟩ => ⟨S1x256, .f32⟩
  | .hbm, ⟨14, _⟩ => ⟨S_, .i32⟩
  | .hbm, ⟨15, _⟩ => ⟨S_, .f32⟩
  | .hbm, ⟨16, _⟩ => ⟨S1x256, .f32⟩
  | .hbm, ⟨17, _⟩ => ⟨S4096x256, .f32⟩
  | .hbm, ⟨18, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_call3_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  pads_S4096x256_S4096x256_000_000 : S4096x256.Pads (![0, 0] : Fin 2 → Nat) ![0, 0] ![0, 0] S4096x256
  h_S_ : 0 < S_.numel
  pads_S4096x4096_S4096x4096_000_000 : S4096x4096.Pads (![0, 0] : Fin 2 → Nat) ![0, 0] ![0, 0] S4096x4096
  pads_S256x256_S256x256_000_000 : S256x256.Pads (![0, 0] : Fin 2 → Nat) ![0, 0] ![0, 0] S256x256
  shapeCasts_S256_S1x256 : S256.ShapeCasts S1x256
  pads_S1x256_S1x256_000_000 : S1x256.Pads (![0, 0] : Fin 2 → Nat) ![0, 0] ![0, 0] S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .f32 = 32 ∨ (Rect.block (s := S4096x256) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x4096.size a
  hwx1_0 : ∀ i : grid1.Coords, EltTy.bits .f32 = 32 ∨ (Rect.block (s := S4096x4096) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S4096x256.size a
  hwx1_1 : ∀ i : grid1.Coords, EltTy.bits .f32 = 32 ∨ (Rect.block (s := S4096x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x256.size a
  hwx1_3 : ∀ i : grid1.Coords, EltTy.bits .f32 = 32 ∨ (Rect.block (s := S4096x256) S256x256.size (cc1_transform_3 i) (hinb1_3 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.KPayload.lean ====
/-
  The kernel body's one stored value, read at an index.

  At a grid point the body holds a block A of 512 adjacency rows (512 × 4096), the features X (4096 × 256), the
  weight W (256 × 256) and the bias as one row B (1 × 256). Over the extended reals a change of float format is
  the identity and a shape cast to the same shape changes nothing, so the stored value is

      ((A · X) · W)[p, q] + B[0, q]  =  Σ_k (Σ_l A[p, l] · X[l, k]) · W[k, q]  +  B[0, q]:

  each matrix product, accumulated into a zero array, is at entry (p, q) the sum over its one contracted axis of
  the products of the left operand's row p and the right operand's column q; the bias row is repeated on every
  one of the 512 rows; the final sum is entry by entry.
-/
import proofs.«110210_g2000605683403900_pallasbulk_842_20_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The first product's dimension numbers: [512, 4096] times [4096, 256], contracting the 4096 axis. -/
abbrev D1 : DotDims S512x4096 S4096x256 S512x256 := dot_S512x4096_S4096x256_S512x256_1_0_0_1_n_n

/-- The second product's dimension numbers: [512, 256] times [256, 256], contracting the left operand's columns
    against the right operand's rows. -/
abbrev D2 : DotDims S512x256 S256x256 S512x256 := dot_S512x256_S256x256_S512x256_1_0_0_1_n_n

/-- For the first product, at result entry i = (r, c) and contraction position k the left operand is read at
    (r, k) and the right operand at (k, c): the coordinates compute. -/
theorem D1_coords (i : S512x256.Idx) (k : D1.contr.Idx) :
    (D1.lhsIdx i k 0).val = (i 0).val ∧ (D1.lhsIdx i k 1).val = (k ⟨0, by decide⟩).val
    ∧ (D1.rhsIdx i k 0).val = (k ⟨0, by decide⟩).val ∧ (D1.rhsIdx i k 1).val = (i 1).val :=
  ⟨rfl, rfl, rfl, rfl⟩

/-- The same for the second product. -/
theorem D2_coords (i : S512x256.Idx) (k : D2.contr.Idx) :
    (D2.lhsIdx i k 0).val = (i 0).val ∧ (D2.lhsIdx i k 1).val = (k ⟨0, by decide⟩).val
    ∧ (D2.rhsIdx i k 0).val = (k ⟨0, by decide⟩).val ∧ (D2.rhsIdx i k 1).val = (i 1).val :=
  ⟨rfl, rfl, rfl, rfl⟩

/-- The first product into a zero accumulator, at entry (p, q): Σ_l a[p, l] · b[l, q] over the 4096 contracted
    positions. The sum over the contraction shape's indices is re-indexed by its one coordinate. -/
theorem matmul1_apply (a : FVec Ideal S512x4096 .bf16) (b : FVec Ideal S4096x256 .bf16) (p : Fin 512) (q : Fin 256) :
    matmul D1 none a b (constant (F := Ideal) S512x256 .f32 0x00000000#32) (ix2 p q)
      = ∑ l : Fin 4096, a (ix2 p l) * b (ix2 l q) := by
  show FloatOps.matmul D1 none a b (constant (F := Ideal) S512x256 .f32 0x00000000#32) (ix2 p q) = _
  rw [Ideal.matmul_constant_zero_apply, ← Equiv.sum_comp (contrEquiv1 D1 4096 rfl rfl).symm]
  refine Finset.sum_congr rfl fun l _ => ?_
  have hl := contrEquiv1_symm_val D1 4096 rfl rfl l
  obtain ⟨c0, c1, c2, c3⟩ := D1_coords (ix2 p q) ((contrEquiv1 D1 4096 rfl rfl).symm l)
  have el : D1.lhsIdx (ix2 p q) ((contrEquiv1 D1 4096 rfl rfl).symm l) = ix2 p l := funext fun ax => Fin.ext (by
    match ax with
    | ⟨0, _⟩ => exact c0
    | ⟨1, _⟩ => exact c1.trans hl)
  have er : D1.rhsIdx (ix2 p q) ((contrEquiv1 D1 4096 rfl rfl).symm l) = ix2 l q := funext fun ax => Fin.ext (by
    match ax with
    | ⟨0, _⟩ => exact c2.trans hl
    | ⟨1, _⟩ => exact c3)
  rw [el, er]

/-- The second product into a zero accumulator, at entry (p, q): Σ_k a[p, k] · b[k, q] over the 256 contracted
    positions. -/
theorem matmul2_apply (a : FVec Ideal S512x256 .f32) (b : FVec Ideal S256x256 .f32) (p : Fin 512) (q : Fin 256) :
    matmul D2 none a b (constant (F := Ideal) S512x256 .f32 0x00000000#32) (ix2 p q)
      = ∑ k : Fin 256, a (ix2 p k) * b (ix2 k q) := by
  show FloatOps.matmul D2 none a b (constant (F := Ideal) S512x256 .f32 0x00000000#32) (ix2 p q) = _
  rw [Ideal.matmul_constant_zero_apply, ← Equiv.sum_comp (contrEquiv1 D2 256 rfl rfl).symm]
  refine Finset.sum_congr rfl fun k _ => ?_
  have hk := contrEquiv1_symm_val D2 256 rfl rfl k
  obtain ⟨c0, c1, c2, c3⟩ := D2_coords (ix2 p q) ((contrEquiv1 D2 256 rfl rfl).symm k)
  have el : D2.lhsIdx (ix2 p q) ((contrEquiv1 D2 256 rfl rfl).symm k) = ix2 p k := funext fun ax => Fin.ext (by
    match ax with
    | ⟨0, _⟩ => exact c0
    | ⟨1, _⟩ => exact c1.trans hk)
  have er : D2.rhsIdx (ix2 p q) ((contrEquiv1 D2 256 rfl rfl).symm k) = ix2 k q := funext fun ax => Fin.ext (by
    match ax with
    | ⟨0, _⟩ => exact c2.trans hk
    | ⟨1, _⟩ => exact c3)
  rw [el, er]

/-- The stored value as one expression of the four loaded blocks: the body's lines composed. -/
theorem pay_eq (x0 : Vec Ideal S512x4096 .f32) (x1 : Vec Ideal S4096x256 .f32) (x2 : Vec Ideal S256x256 .f32)
    (x3 : Vec Ideal S1x256 .f32) :
    k0_pay1 x0 x1 x2 x3
      = addf
          (matmul D2 none
            (matmul D1 none
              (truncf .bf16 (shapeCast S512x4096 x0 shapeCasts_S512x4096_S512x4096 : FVec Ideal S512x4096 .f32) bitsLt_bf16_f32)
              (truncf .bf16 (shapeCast S4096x256 x1 shapeCasts_S4096x256_S4096x256 : FVec Ideal S4096x256 .f32) bitsLt_bf16_f32)
              (constant (F := Ideal) S512x256 .f32 0x00000000#32))
            (shapeCast S256x256 x2 shapeCasts_S256x256_S256x256 : FVec Ideal S256x256 .f32)
            (constant (F := Ideal) S512x256 .f32 0x00000000#32))
          (broadcastTo S512x256 (shapeCast S1x256 x3 shapeCasts_S1x256_S1x256 : FVec Ideal S1x256 .f32) broadcasts_S1x256_S512x256) := rfl

/-- THE STORED VALUE AT ENTRY (p, q): ((A · X) · W)[p, q] + B[0, q]. -/
theorem pay_apply (x0 : Vec Ideal S512x4096 .f32) (x1 : Vec Ideal S4096x256 .f32) (x2 : Vec Ideal S256x256 .f32)
    (x3 : Vec Ideal S1x256 .f32) (p : Fin 512) (q : Fin 256) :
    k0_pay1 x0 x1 x2 x3 (ix2 p q)
      = (∑ k : Fin 256, (∑ l : Fin 4096, x0 (ix2 p l) * x1 (ix2 l k)) * x2 (ix2 k q)) + x3 (ix2 (0 : Fin 1) q) := by
  rw [pay_eq, addf_apply, matmul2_apply, broadcastTo_1b_ab_apply]
  simp only [matmul1_apply, truncf_apply, shapeCast_self]

end Cert.KernelIdeal.Hand

end
-- ==== Proof.HostPad.lean ====
/-
  Two host-side layout steps that change no entry.

  A pad whose low, high and interior widths are all zero adds nothing around or between the entries of its
  operand: every index of the result lies inside the operand, at the same coordinates, so the result is the
  operand itself.

  A vector of n entries reshaped to one row of n entries keeps its entries in order: the row's entry (0, j)
  is the vector's entry j.
-/
import Idealize.ShloMosaic.Lib.KernelVsHost
import Idealize.ShloMosaic.Lib.ValueLayout
import Idealize.ShloMosaic.Lib.ValueIdx

namespace Cert.Gcn

open Idealize.ShloMosaic Idealize.ShloMosaic.ValueIdx

/-- A rank-two pad of zero low, high and interior width on both axes is the identity: result index (p, q)
    reads operand index (0 + p · (0 + 1), 0 + q · (0 + 1)) = (p, q), and no index falls in the padding. -/
theorem pad_zero_width {α : Type} {d : Fin 2 → ℕ} (x : (⟨2, d⟩ : Shape).Idx → α) {u : Shape} (v : u.Idx → α)
    (hp : (⟨2, d⟩ : Shape).Pads (![0, 0] : Fin 2 → ℕ) ![0, 0] ![0, 0] ⟨2, d⟩) (hu : 0 < u.numel) :
    pad (⟨2, d⟩ : Shape) (![0, 0] : Fin 2 → ℕ) ![0, 0] ![0, 0] x v hp hu = x := by
  funext j
  refine pad_apply_of_inside _ _ _ x v hp hu j j fun a => ?_
  match a with
  | ⟨0, _⟩ => show (j 0).val = 0 + (j 0).val * (0 + 1); omega
  | ⟨1, _⟩ => show (j 1).val = 0 + (j 1).val * (0 + 1); omega

/-- The same, read at an index. -/
theorem pad_zero_width_apply {α : Type} {d : Fin 2 → ℕ} (x : (⟨2, d⟩ : Shape).Idx → α) {u : Shape} (v : u.Idx → α)
    (hp : (⟨2, d⟩ : Shape).Pads (![0, 0] : Fin 2 → ℕ) ![0, 0] ![0, 0] ⟨2, d⟩) (hu : 0 < u.numel)
    (j : (⟨2, d⟩ : Shape).Idx) :
    pad (⟨2, d⟩ : Shape) (![0, 0] : Fin 2 → ℕ) ![0, 0] ![0, 0] x v hp hu j = x j :=
  congrFun (pad_zero_width x v hp hu) j

/-- A vector of n entries laid out as one row: entry (z, j) of the row is entry j of the vector. -/
theorem row_of_vector_apply {α : Type} {n : ℕ} (x : (⟨1, ![n]⟩ : Shape).Idx → α)
    (h : (⟨1, ![n]⟩ : Shape).ShapeCasts ⟨2, ![1, n]⟩) (z : Fin 1) (j : Fin n) :
    shapeCast (⟨2, ![1, n]⟩ : Shape) x h (ix2 z j) = x (ix1 j) :=
  shapeCast_a_1a_apply x h z j

/-- The same as an equation of arrays: the row is the vector read at the row's second coordinate. -/
theorem row_of_vector {α : Type} {n : ℕ} (x : (⟨1, ![n]⟩ : Shape).Idx → α)
    (h : (⟨1, ![n]⟩ : Shape).ShapeCasts ⟨2, ![1, n]⟩) :
    shapeCast (⟨2, ![1, n]⟩ : Shape) x h = fun i => x (ix1 (i 1)) := by
  funext i
  obtain ⟨z, j, rfl⟩ : ∃ (z : Fin 1) (j : Fin n), i = ix2 z j := ⟨i 0, i 1, eq_ix2 i⟩
  exact shapeCast_a_1a_apply x h z j

end Cert.Gcn
-- ==== Proof.Spec.lean ====
/-
  One graph-convolution layer on a dense adjacency, out = adj · x · W + b, over the extended reals, in the two
  arrangements the two programs compute it in.

  `fused` multiplies the adjacency into the features first: entry (r, j) is
  Σ_k (Σ_l adj[r, l] · x[l, k]) · W[k, j] + b[j].

  `blocked` first forms the support s = x · W and then accumulates adj · s over sixteen column blocks of 256
  columns of the adjacency, starting from zero: after block n the running value of entry (r, j) is
  `partial n` = (…((0 + B₀) + B₁) … + Bₙ) with Bₙ = Σ_{l < 256} adj[r, 256 n + l] · s[256 n + l, j]; the result is
  the running value after the last block, plus b[j].

  The two agree wherever every entry of adj, x and W is a real number (theorem `fused_eq_blocked`): the products then
  distribute over the sums, and a sum over 4096 columns is the sum of its sixteen blocks.
-/
import Idealize.ShloMosaic.PureOps.Ideal
import Idealize.ShloMosaic.Lib.ValueIdx

noncomputable section

open scoped BigOperators

namespace Cert.Gcn

open Idealize.ShloMosaic Idealize.ShloMosaic.ValueIdx

/-- Node features, and the result: 4096 nodes by 256 features. -/
abbrev SX : Shape := ⟨2, ![4096, 256]⟩
/-- The dense adjacency. -/
abbrev SA : Shape := ⟨2, ![4096, 4096]⟩
/-- The weight. -/
abbrev SW : Shape := ⟨2, ![256, 256]⟩
/-- The bias as one row. -/
abbrev SB : Shape := ⟨2, ![1, 256]⟩
/-- The bias as the argument gives it: 256 entries. -/
abbrev SBias : Shape := ⟨1, ![256]⟩

/-- The bias vector laid out as the one row both programs hand their kernels. -/
def rowOf (bias : SBias.Idx → EReal) : SB.Idx → EReal := fun i => bias (ix1 (i 1))

theorem rowOf_ix2 (bias : SBias.Idx → EReal) (z : Fin 1) (j : Fin 256) : rowOf bias (ix2 z j) = bias (ix1 j) := rfl

variable (adj : SA.Idx → EReal) (x : SX.Idx → EReal) (w : SW.Idx → EReal) (b : SB.Idx → EReal)

/-- Entry (r, j) of (adj · x) · W + b. -/
def fusedAt (r : Fin 4096) (j : Fin 256) : EReal :=
  (∑ k : Fin 256, (∑ l : Fin 4096, adj (ix2 r l) * x (ix2 l k)) * w (ix2 k j)) + b (ix2 (0 : Fin 1) j)

/-- (adj · x) · W + b as an array. -/
def fused : SX.Idx → EReal := fun i => fusedAt adj x w b (i 0) (i 1)

theorem fused_ix2 (r : Fin 4096) (j : Fin 256) : fused adj x w b (ix2 r j) = fusedAt adj x w b r j := rfl

/-- Entry (l, j) of the support x · W. -/
def supportAt (l : Fin 4096) (j : Fin 256) : EReal := ∑ k : Fin 256, x (ix2 l k) * w (ix2 k j)

/-- The support x · W as an array. -/
def support : SX.Idx → EReal := fun i => supportAt x w (i 0) (i 1)

theorem support_ix2 (l : Fin 4096) (j : Fin 256) : support x w (ix2 l j) = supportAt x w l j := rfl

/-- Column `l` of column block `n` of the adjacency (sixteen blocks of 256 columns). -/
def col (n : Fin 16) (l : Fin 256) : Fin 4096 := ⟨256 * n.val + l.val, by have := n.isLt; have := l.isLt; omega⟩

theorem col_val (n : Fin 16) (l : Fin 256) : (col n l).val = 256 * n.val + l.val := rfl

variable (s : SX.Idx → EReal)

/-- Block `n`'s share of entry (r, j) of adj · s. -/
def blockDot (r : Fin 4096) (j : Fin 256) (n : Fin 16) : EReal :=
  ∑ l : Fin 256, adj (ix2 r (col n l)) * s (ix2 (col n l) j)

/-- The running value of entry (r, j) after column block `n`, started from zero; past the last block nothing is added. -/
def partialSum (r : Fin 4096) (j : Fin 256) : ℕ → EReal
  | 0 => 0 + blockDot adj s r j 0
  | n + 1 => partialSum r j n + (if h : n + 1 < 16 then blockDot adj s r j ⟨n + 1, h⟩ else 0)

theorem partialSum_zero (r : Fin 4096) (j : Fin 256) : partialSum adj s r j 0 = 0 + blockDot adj s r j 0 := rfl

theorem partialSum_succ (r : Fin 4096) (j : Fin 256) (n : ℕ) (h : n + 1 < 16) :
    partialSum adj s r j (n + 1) = partialSum adj s r j n + blockDot adj s r j ⟨n + 1, h⟩ := by
  show partialSum adj s r j n + (if h : n + 1 < 16 then blockDot adj s r j ⟨n + 1, h⟩ else 0) = _
  rw [dif_pos h]

/-- Entry (r, j) of adj · (x · W) + b accumulated block by block. -/
def blockedAt (r : Fin 4096) (j : Fin 256) : EReal :=
  partialSum adj (support x w) r j 15 + b (ix2 (0 : Fin 1) j)

/-- adj · (x · W) + b, accumulated block by block, as an array. -/
def blocked : SX.Idx → EReal := fun i => blockedAt adj x w b (i 0) (i 1)

theorem blocked_ix2 (r : Fin 4096) (j : Fin 256) : blocked adj x w b (ix2 r j) = blockedAt adj x w b r j := rfl

end Cert.Gcn

end
-- ==== Proof.KFinal.lean ====
/-
  The kernel's result as one function of its arguments.

  The grid has eight points. At point t the body sees rows 512·t … 512·t + 511 of the adjacency (all 4096
  columns), and the whole of the features, the weight and the bias row; it writes rows 512·t … 512·t + 511 of
  the result. Its stored value at block entry (p, q) is ((A · X) · W)[p, q] + B[0, q] for the loaded adjacency
  block A, so what point t writes back is block t of the one array

      fused adj x W b = (adj · x) · W + b,   entry (r, j) = Σ_k (Σ_l adj[r, l] · x[l, k]) · W[k, j] + b[0, j].

  Row r of the result lies in the block of point r / 512, and every point writes its block back, so the eight
  blocks cover the result and it ends holding that array. Before the grid runs, the adjacency, the features and
  the weight each pass through a pad of zero width on every side, which returns its operand, and the bias
  vector of 256 entries is laid out as one row of 256 entries in the same order; so the arrays the grid reads
  are the arguments themselves, the bias as one row.
-/
import proofs.«110210_g2000605683403900_pallasbulk_842_20_alg».proof.Proof.Gen.KernelIdeal.Frame
import proofs.«110210_g2000605683403900_pallasbulk_842_20_alg».proof.Proof.Gen.KernelIdeal.Value
import proofs.«110210_g2000605683403900_pallasbulk_842_20_alg».proof.Proof.KPayload
import proofs.«110210_g2000605683403900_pallasbulk_842_20_alg».proof.Proof.HostPad
import proofs.«110210_g2000605683403900_pallasbulk_842_20_alg».proof.Proof.Spec
import Idealize.ShloMosaic.Lib.Pipeline.Value
import Idealize.ShloMosaic.Lib.Tactic

noncomputable section

open scoped BigOperators

namespace Cert.KernelIdeal.Hand

open Cert.KernelIdeal Cert.KernelIdeal.Gen Idealize.ShloMosaic Idealize.ShloMosaic.TcCoe Idealize.ShloMosaic.ValueIdx
open Idealize.ShloMosaic.Tactic Idealize.SL.Sem
open Idealize.ShloMosaic.Pipeline (Dat)

variable (m : (ℓ : Loc nD τ sig) → Buf (Elt Ideal) ℓ) (ρ : Dev nD → PrngReg)

/-- The zero offset on both axes. -/
theorem hz : (![0, 0] : Fin 2 → Nat) = fun _ => 0 := funext fun a => by fin_cases a <;> rfl

/-- The features window's array when the region is entered is the features argument: the zero-width pad
    before the region returns its operand. -/
theorem V_main_v0 (c : Dev nD) :
    (V m c main_v0 : S4096x256.Idx → EReal) = m ((c : Thread nD τ).loc main_arg0) := by
  dsimp only [Gen.V]
  simp only [hostOps0, hostOps0_1, hostOps0_2, hostOps0_3, hostOps0_4, hostOps0_5, hostOps0_6, hostOps0_7,
    List.flatten_cons, List.flatten_nil, List.append_nil, List.cons_append, List.nil_append]
  after_results
  show pad S4096x256 ![0, 0] ![0, 0] ![0, 0] (m ((c : Thread nD τ).loc main_arg0) : S4096x256.Idx → EReal) _ pads_S4096x256_S4096x256_000_000 h_S_ = _
  exact Cert.Gcn.pad_zero_width _ _ _ _

/-- The adjacency window's array when the region is entered is the adjacency argument. -/
theorem V_main_v1 (c : Dev nD) :
    (V m c main_v1 : S4096x4096.Idx → EReal) = m ((c : Thread nD τ).loc main_arg1) := by
  dsimp only [Gen.V]
  simp only [hostOps0, hostOps0_1, hostOps0_2, hostOps0_3, hostOps0_4, hostOps0_5, hostOps0_6, hostOps0_7,
    List.flatten_cons, List.flatten_nil, List.append_nil, List.cons_append, List.nil_append]
  after_results
  show pad S4096x4096 ![0, 0] ![0, 0] ![0, 0] (m ((c : Thread nD τ).loc main_arg1) : S4096x4096.Idx → EReal) _ pads_S4096x4096_S4096x4096_000_000 h_S_ = _
  exact Cert.Gcn.pad_zero_width _ _ _ _

/-- The weight window's array when the region is entered is the weight argument. -/
theorem V_main_v2 (c : Dev nD) :
    (V m c main_v2 : S256x256.Idx → EReal) = m ((c : Thread nD τ).loc main_arg2) := by
  dsimp only [Gen.V]
  simp only [hostOps0, hostOps0_1, hostOps0_2, hostOps0_3, hostOps0_4, hostOps0_5, hostOps0_6, hostOps0_7,
    List.flatten_cons, List.flatten_nil, List.append_nil, List.cons_append, List.nil_append]
  after_results
  show pad S256x256 ![0, 0] ![0, 0] ![0, 0] (m ((c : Thread nD τ).loc main_arg2) : S256x256.Idx → EReal) _ pads_S256x256_S256x256_000_000 h_S_ = _
  exact Cert.Gcn.pad_zero_width _ _ _ _

/-- The bias window's array when the region is entered is the bias argument laid out as one row: the reshape
    keeps the 256 entries in order, and the zero-width pad after it returns its operand. -/
theorem V_main_v4 (c : Dev nD) :
    (V m c main_v4 : S1x256.Idx → EReal) = Cert.Gcn.rowOf (m ((c : Thread nD τ).loc main_arg3)) := by
  dsimp only [Gen.V]
  simp only [hostOps0, hostOps0_1, hostOps0_2, hostOps0_3, hostOps0_4, hostOps0_5, hostOps0_6, hostOps0_7,
    List.flatten_cons, List.flatten_nil, List.append_nil, List.cons_append, List.nil_append]
  after_results
  show pad S1x256 ![0, 0] ![0, 0] ![0, 0] (shapeCast S1x256 (m ((c : Thread nD τ).loc main_arg3) : S256.Idx → EReal) shapeCasts_S256_S1x256) _ pads_S1x256_S1x256_000_000 h_S_ = _
  rw [Cert.Gcn.pad_zero_width]
  exact Cert.Gcn.row_of_vector _ _

/-- The windows' block positions at grid point t, by evaluation over the eight points: the adjacency window
    and the result window are at row block t, column block 0; the features, the weight and the bias row do not
    move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The stored value at block entry (p, q) is entry (r, q) of (adj · x) · W + b, when row p of the loaded
    adjacency block is row r of the adjacency; the other three blocks are the whole arrays. -/
theorem pay_fused (x0 : Vec Ideal S512x4096 .f32) (A : S4096x4096.Idx → EReal) (X : S4096x256.Idx → EReal)
    (W : S256x256.Idx → EReal) (B : S1x256.Idx → EReal) (p : Fin 512) (q : Fin 256) (r : Fin 4096)
    (hA : ∀ l : Fin 4096, x0 (ix2 p l) = A (ix2 r l)) :
    k0_pay1 x0 X W B (ix2 p q) = Cert.Gcn.fused A X W B (ix2 r q) := by
  rw [pay_apply, Cert.Gcn.fused_ix2]
  unfold Cert.Gcn.fusedAt
  simp only [hA]

/-- The adjacency window's block at point t is rows 512·t … 512·t + 511 of the adjacency, all 4096 columns. -/
theorem iblk0_apply (c : Dev nD) (t : Fin cfg0.N) (y : S512x4096.Idx) (i : S4096x4096.Idx)
    (h0 : (i 0).val = 512 * t.val + (y 0).val) (h1 : (i 1).val = (y 1).val) :
    (iblk m c 0 t : Vec Ideal S512x4096 .f32) y = (V m c main_v1 : S4096x4096.Idx → EReal) i := by
  obtain ⟨e0, e1, -⟩ := idx_facts t
  show (V m c main_v1 : S4096x4096.Idx → EReal) (((cfg0.win 0).blk t).view.emb y) = (V m c main_v1 : S4096x4096.Idx → EReal) i
  refine congrArg _ (funext fun a => Fin.ext ?_)
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- The features window's block at every point is the whole features array. -/
theorem iblk1_eq (c : Dev nD) (t : Fin cfg0.N) :
    (iblk m c 1 t : Vec Ideal S4096x256 .f32) = (V m c main_v0 : S4096x256.Idx → EReal) := by
  obtain ⟨-, -, e2, e3, -⟩ := idx_facts t
  funext y
  show (V m c main_v0 : S4096x256.Idx → EReal) (((cfg0.win 1).blk t).view.emb y) = (V m c main_v0 : S4096x256.Idx → EReal) y
  refine congrArg _ (funext fun a => Fin.ext ?_)
  match a with
  | ⟨0, _⟩ => show win0_1.index t (0 : Fin 2) * 4096 + 1 * (y 0).val = (y 0).val; omega
  | ⟨1, _⟩ => show win0_1.index t (1 : Fin 2) * 256 + 1 * (y 1).val = (y 1).val; omega

/-- The weight window's block at every point is the whole weight. -/
theorem iblk2_eq (c : Dev nD) (t : Fin cfg0.N) :
    (iblk m c 2 t : Vec Ideal S256x256 .f32) = (V m c main_v2 : S256x256.Idx → EReal) := by
  obtain ⟨-, -, -, -, e4, e5, -⟩ := idx_facts t
  funext y
  show (V m c main_v2 : S256x256.Idx → EReal) (((cfg0.win 2).blk t).view.emb y) = (V m c main_v2 : S256x256.Idx → EReal) y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- The bias window's block at every point is the whole bias row. -/
theorem iblk3_eq (c : Dev nD) (t : Fin cfg0.N) :
    (iblk m c 3 t : Vec Ideal S1x256 .f32) = (V m c main_v4 : S1x256.Idx → EReal) := by
  obtain ⟨-, -, -, -, -, -, e6, e7, -⟩ := idx_facts t
  funext y
  show (V m c main_v4 : S1x256.Idx → EReal) (((cfg0.win 3).blk t).view.emb y) = (V m c main_v4 : S1x256.Idx → EReal) y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- (adj · x) · W + b of the four window arrays as the region finds them. -/
abbrev G (c : Dev nD) : S4096x256.Idx → EReal :=
  Cert.Gcn.fused (V m c main_v1 : S4096x4096.Idx → EReal) (V m c main_v0 : S4096x256.Idx → EReal)
    (V m c main_v2 : S256x256.Idx → EReal) (V m c main_v4 : S1x256.Idx → EReal)

/-- WHAT POINT t WRITES BACK is block t — rows 512·t … 512·t + 511 — of (adj · x) · W + b. -/
theorem flushed_eq (c : Dev nD) (t : Fin cfg0.N) :
    (dats m 0 c).flushed 4 t = ((cfg0.win 4).blk t).view.read (Elt Ideal) (G m c) := by
  rw [Value.flushed4]
  unfold out0_4
  rw [View.canon_unit_zero hz]
  simp only [View.ld_unit_zero (S := S512x4096) hz, View.ld_unit_zero (S := S4096x256) hz,
    View.ld_unit_zero (S := S256x256) hz, View.ld_unit_zero (S := S1x256) hz]
  rw [iblk1_eq, iblk2_eq, iblk3_eq]
  obtain ⟨-, -, -, -, -, -, -, -, e8, e9⟩ := idx_facts t
  funext j
  obtain ⟨p, q, rfl⟩ : ∃ (p : Fin 512) (q : Fin 256), j = ix2 p q := ⟨j 0, j 1, eq_ix2 j⟩
  have ht : t.val < 8 := Nat.lt_of_lt_of_eq t.isLt N_0
  show k0_pay1 (iblk m c 0 t) (V m c main_v0 : S4096x256.Idx → EReal) (V m c main_v2 : S256x256.Idx → EReal) (V m c main_v4 : S1x256.Idx → EReal) (ix2 p q)
      = G m c (((cfg0.win 4).blk t).view.emb (ix2 p q))
  have hemb : ((cfg0.win 4).blk t).view.emb (ix2 p q) = ix2 (⟨512 * t.val + p.val, by omega⟩ : Fin 4096) q := by
    funext a; apply Fin.ext
    match a with
    | ⟨0, _⟩ => show win0_4.index t (0 : Fin 2) * 512 + 1 * p.val = 512 * t.val + p.val; omega
    | ⟨1, _⟩ => show win0_4.index t (1 : Fin 2) * 256 + 1 * q.val = q.val; omega
  rw [hemb]
  exact pay_fused _ _ _ _ _ p q _ fun l => iblk0_apply m c t (ix2 p l) (ix2 _ l) rfl rfl

/-- An index of the result array is in point t's block iff each coordinate is in the block's range on its axis. -/
theorem mem_blk (t : Fin cfg0.N) (i : S4096x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v5).slice (win0_4.rect t)).set ↔ _
  rw [View.set_slice_whole, Rect.mem_set_unit]
  exact Iff.rfl

/-- THE COVER: row r of the result lies in the block of point r / 512, and every point writes its block back. -/
theorem cover (i : S4096x256.Idx) :
    ∃ t : Fin cfg0.N, (cfg0.win 4).flush t = true ∧ i ∈ ((cfg0.win 4).blk t).view.set := by
  have hi0 : (i 0).val < 4096 := (i 0).isLt
  have hi1 : (i 1).val < 256 := (i 1).isLt
  have hN : cfg0.N = 8 := N_0
  have hlt : (i 0).val / 512 < cfg0.N := by rw [hN]; omega
  obtain ⟨-, -, -, -, -, -, -, -, e8, e9⟩ := idx_facts ⟨(i 0).val / 512, hlt⟩
  refine ⟨⟨(i 0).val / 512, hlt⟩, flush0_4 _, ?_⟩
  rw [mem_blk]
  intro a
  match a with
  | ⟨0, _⟩ =>
    show win0_4.index ⟨(i 0).val / 512, hlt⟩ (0 : Fin 2) * 512 ≤ (i 0).val ∧ (i 0).val < win0_4.index ⟨(i 0).val / 512, hlt⟩ (0 : Fin 2) * 512 + 512
    rw [e8]; show (i 0).val / 512 * 512 ≤ (i 0).val ∧ (i 0).val < (i 0).val / 512 * 512 + 512; omega
  | ⟨1, _⟩ =>
    show win0_4.index ⟨(i 0).val / 512, hlt⟩ (1 : Fin 2) * 256 ≤ (i 1).val ∧ (i 1).val < win0_4.index ⟨(i 0).val / 512, hlt⟩ (1 : Fin 2) * 256 + 256
    rw [e9]; omega

/-- THE RESULT ARRAY after the run is (adj · x) · W + b of the arguments, the bias laid out as one row. -/
theorem final (c : Dev nD) :
    (dats m 0 c).arrAt 4 cfg0.N
      = Cert.Gcn.fused (m ((c : Thread nD τ).loc main_arg1)) (m ((c : Thread nD τ).loc main_arg0))
          (m ((c : Thread nD τ).loc main_arg2)) (Cert.Gcn.rowOf (m ((c : Thread nD τ).loc main_arg3))) := by
  rw [(dats m 0 c).arrAt_eq_of_cover 4 (G m c) (fun t _ => flushed_eq m c t) cover]
  show Cert.Gcn.fused (V m c main_v1 : S4096x4096.Idx → EReal) (V m c main_v0 : S4096x256.Idx → EReal)
    (V m c main_v2 : S256x256.Idx → EReal) (V m c main_v4 : S1x256.Idx → EReal) = _
  rw [V_main_v1, V_main_v0, V_main_v2, V_main_v4]

/-- THE KERNEL'S RUN: every weakly fair execution ends with the result array at (adj · x) · W + b of the
    arguments and the four arguments unchanged. -/
theorem run :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v5)
        = Cert.Gcn.fused (m ((c.tc : Thread _ _).loc Cert.KernelIdeal.main_arg1)) (m ((c.tc : Thread _ _).loc Cert.KernelIdeal.main_arg0)) (m ((c.tc : Thread _ _).loc Cert.KernelIdeal.main_arg2)) (Cert.Gcn.rowOf (m ((c.tc : Thread _ _).loc Cert.KernelIdeal.main_arg3)))
      ∧ r.2.mem ((c.tc : Thread Cert.KernelIdeal.nD Cert.KernelIdeal.τ).loc Cert.KernelIdeal.main_arg0) = m ((c.tc : Thread _ _).loc Cert.KernelIdeal.main_arg0)
      ∧ r.2.mem ((c.tc : Thread Cert.KernelIdeal.nD Cert.KernelIdeal.τ).loc Cert.KernelIdeal.main_arg1) = m ((c.tc : Thread _ _).loc Cert.KernelIdeal.main_arg1)
      ∧ r.2.mem ((c.tc : Thread Cert.KernelIdeal.nD Cert.KernelIdeal.τ).loc Cert.KernelIdeal.main_arg2) = m ((c.tc : Thread _ _).loc Cert.KernelIdeal.main_arg2)
      ∧ r.2.mem ((c.tc : Thread Cert.KernelIdeal.nD Cert.KernelIdeal.τ).loc Cert.KernelIdeal.main_arg3) = m ((c.tc : Thread _ _).loc Cert.KernelIdeal.main_arg3) :=
  (θ_run defs _ _).mono (fun r h c => ⟨(h c).1.trans (final m c), (h c).2⟩) (Value.run_blocks m ρ)

end Cert.KernelIdeal.Hand

end
-- ==== Proof.RSupport.lean ====
/-
  The first region of the reference: the support s = x · W, one block of 256 rows per grid point.
  At each of the 16 points the body loads the point's 256 rows of the features and the whole weight, multiplies
  them into a zero accumulator, and stores the product over the whole output block. Nothing is carried from one
  point to the next, so what a point leaves in the output block is one function (`rowsTimesWeight`) of the two
  blocks it read. Everything here is stated at the contents `V` the region finds in the arrays when it is entered.
-/
import proofs.«110210_g2000605683403900_pallasbulk_842_20_alg».proof.Proof.Gen.ReferenceIdeal.Launch
import proofs.«110210_g2000605683403900_pallasbulk_842_20_alg».proof.Proof.Gen.ReferenceIdeal.Skeleton
import proofs.«110210_g2000605683403900_pallasbulk_842_20_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def sblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds the point's block at every point. -/
theorem sbefore_rows_of {c : Dev nD} (dat : Dat τ (Elt F) Unit ℕ (UR sig nD τ) ℕ cfg0 c) (hA : dat.A 0 = V c (Pipeline.arrRef spec0 0))
    (hafter : ∀ t, dat.after 0 t = sblk V c 0 t) (t : Fin cfg0.N) (d) : dat.before 0 t d = sblk V c 0 t :=
  (dat.before_in_eq_fetched 0 rfl (fun _ => rfl) (fun _ _ _ => rfl) (fun t => by rw [hafter]; unfold Dat.blockOf sblk; rw [hA]; try rfl) t d).trans
    (by unfold Dat.fetched Dat.blockOf sblk; rw [hA]; try rfl)

/-- The weight's staging buffer holds the whole weight at every point: it is fetched once and its block never moves. -/
theorem sbefore_weight_of {c : Dev nD} (dat : Dat τ (Elt F) Unit ℕ (UR sig nD τ) ℕ cfg0 c) (hA : dat.A 1 = V c (Pipeline.arrRef spec0 1))
    (hafter : ∀ t, dat.after 1 t = sblk V c 1 t) (t : Fin cfg0.N) (d) : dat.before 1 t d = sblk V c 1 t :=
  (dat.before_in_eq_fetched 1 rfl (fun _ => rfl) (fun _ _ _ => rfl) (fun t => by rw [hafter]; unfold Dat.blockOf sblk; rw [hA]; try rfl) t d).trans
    (by unfold Dat.fetched Dat.blockOf sblk; rw [hA]; try rfl)

/-! ## What the body leaves in the output block -/

/-- The whole 256 × 256 block: every load and the one store of the body go through it. -/
abbrev whole256 : Rect S256x256 := Rect.unit (s := S256x256) ![0, 0] S256x256.size inb_S256x256_S256x256_0_0

/-- The output block after the body: the product of the rows' block and the weight, stored whole. -/
def rowsTimesWeight (x0 : Vec F S256x256 .f32) (x1 : Vec F S256x256 .f32) : Vec F S256x256 .f32 :=
  View.canon [⟨whole256, k0_pay1 (View.ld x0 whole256) (View.ld x1 whole256)⟩]

/-- One store of the whole block covers the block. -/
theorem cover_whole256 (p0 : Vec F S256x256 .f32) (y : S256x256.Idx) :
    ∃ pc ∈ ([⟨whole256, p0⟩] : List (View.Piece (Elt F) S256x256 .f32)), y ∈ pc.1.set :=
  View.cover_of_tiled [⟨whole256, p0⟩] S256x256.size (by rfl) y

/-! ## The body's triple -/

set_option maxHeartbeats 1000000 in
/-- The body, given the two input blocks and the output buffer at anything, returns the inputs as they were and
    the output buffer at `rowsTimesWeight` of the inputs. -/
theorem support_body (c : Dev nD) (E : Set ℕ) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole)
    (x0 : Vec F S256x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (rowsTimesWeight x0 x1)) -∗ K ⟨⟩))
      ⊢ wp frame (wpE (defs₀ (F := F)) Variants.none c none) E (cc0_support_kernel i arg1 harg1 arg2 harg2 arg3 harg3) K := by
  simp only [cc0_support_kernel_eq_skeleton]; unfold cc0_support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_whole256 _)

/-! ## The region's proof data -/

/-- The region's proof data on core `c`: the arrays as the region finds them; after the body at point `t` each
    input's buffer at its block and the output's at the product of the two; nothing carried between points. -/
def sdat (c : Dev nD) : Dat τ (Elt F) Unit ℕ (UR sig nD τ) ℕ cfg0 c where
  A w := V c (Pipeline.arrRef spec0 w)
  after w t := match w with
    | ⟨0, _⟩ => sblk V c 0 t
    | ⟨1, _⟩ => sblk V c 1 t
    | ⟨2, _⟩ => rowsTimesWeight (sblk V c 0 t) (sblk V c 1 t)
  Φ _ := Pipeline.ΦA spec0 c
  q _ := fullShare
  owed _ := 0

theorem sdat_A (c : Dev nD) (w : Fin cfg0.W) : (sdat V c).A w = V c (Pipeline.arrRef spec0 w) := by
  dsimp only [sdat]

theorem safter_rows (c : Dev nD) (t : Fin cfg0.N) : (sdat V c).after 0 t = sblk V c 0 t := by dsimp only [sdat]
theorem safter_weight (c : Dev nD) (t : Fin cfg0.N) : (sdat V c).after 1 t = sblk V c 1 t := by dsimp only [sdat]
theorem safter_out (c : Dev nD) (t : Fin cfg0.N) : (sdat V c).after 2 t = rowsTimesWeight (sblk V c 0 t) (sblk V c 1 t) := by dsimp only [sdat]

theorem sbefore_rows (c : Dev nD) (t : Fin cfg0.N) (d) : (sdat V c).before 0 t d = sblk V c 0 t :=
  sbefore_rows_of V (sdat V c) (sdat_A V c 0) (safter_rows V c) t d
theorem sbefore_weight (c : Dev nD) (t : Fin cfg0.N) (d) : (sdat V c).before 1 t d = sblk V c 1 t :=
  sbefore_weight_of V (sdat V c) (sdat_A V c 1) (safter_weight V c) t d

/-! ## The body obligation -/

/-- What the body is called with at point `t`, -/
def sbodyPre (c : Dev nD) (t : Fin cfg0.N) : sProp 𝕄 :=
  iprop((sdat V c).Φ t.castSucc ∗ (sdat V c).owesAt () t.castSucc
    ∗ (∃ d, owns (c : Thread nD τ) (st0_0 t) fullShare ((sdat V c).before 0 t d))
    ∗ (∃ d, owns (c : Thread nD τ) (st0_1 t) fullShare ((sdat V c).before 1 t d))
    ∗ (∃ d, owns (c : Thread nD τ) (st0_2 t) fullShare ((sdat V c).before 2 t d)))

/-- and what it returns. -/
def sbodyPost (c : Dev nD) (t : Fin cfg0.N) : sProp 𝕄 :=
  iprop((sdat V c).Φ t.succ ∗ (sdat V c).owesAt () t.succ
    ∗ owns (c : Thread nD τ) (st0_0 t) fullShare ((sdat V c).after 0 t)
    ∗ owns (c : Thread nD τ) (st0_1 t) fullShare ((sdat V c).after 1 t)
    ∗ owns (c : Thread nD τ) (st0_2 t) fullShare ((sdat V c).after 2 t))

/-- The body at any point: the inputs' buffers hold their blocks, so `support_body` applies; the invariant and
    what the core owes pass through unread. -/
theorem support_sound (c : Dev nD) (t : Fin cfg0.N) :
    sbodyPre V c t ⊢ wp frame (wpE (defs₀ (F := F)) Variants.none c none) Set.univ (bodyAt0 t) (fun _ => sbodyPost V c t) := by
  unfold sbodyPre sbodyPost bodyAt0
  simp only [sbefore_rows, sbefore_weight]
  rw [show (sdat V c).Φ t.succ = (sdat V c).Φ t.castSucc from rfl,
    show (sdat V c).owesAt () t.succ = (sdat V c).owesAt () t.castSucc from rfl,
    safter_rows, safter_weight, safter_out]
  iintro ⟨HΦ, Ho, ⟨%d0, H0⟩, ⟨%d1, H1⟩, ⟨%d2, H2⟩⟩
  iapply (support_body c Set.univ _ _ _ _ _ _ _ (sblk V c 0 t) (sblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem support_obligation (c : Dev nD) : BodyObligation (sdat (F := F) V c) (defs₀ (F := F)) Variants.none () Set.univ := fun t => by
  rw [bigSep_W0, bigSep_W0]
  exact support_sound V c t

end Cert.ReferenceIdeal.Hand

end
-- ==== Proof.RAggRuns.lean ====
/-
  The second region of the reference: out = adj · s + b, accumulated in a scratch block over the 16 column blocks
  of the adjacency (grid point (i, k): row block i, column block k). The body does one of three things, decided by k alone:
  at k = 0 it clears the scratch and adds the point's product adj-tile · s-tile to it; at 0 < k < 15 it adds the
  product to what the point before left in the scratch; at k = 15 it does that and then stores the scratch plus the
  bias row into the output block. This module states the two conditions in closed form over the grid, where the output
  window is idle, and the body's run in each of the three cases, the pieces each run leaves in the scratch (and, in
  the last case, in the output block) found by the run itself.
-/
import proofs.«110210_g2000605683403900_pallasbulk_842_20_alg».proof.Proof.Gen.ReferenceIdeal.Launch
import proofs.«110210_g2000605683403900_pallasbulk_842_20_alg».proof.Proof.Gen.ReferenceIdeal.Skeleton
import proofs.«110210_g2000605683403900_pallasbulk_842_20_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- "This is the row block's first column block": the body's first `scf.if`, from the grid coordinates. -/
abbrev isFirst (i : grid1.Coords) : Prop := (Scalar.cmpi .ne (Scalar.extui (Scalar.cmpi .eq (BitVec.ofNat 32 (i 1).val) 0#32)) 0#32) = 1#1
/-- It holds at the points ≡ 0 (mod 16). -/
theorem isFirst_iff : ∀ t : Fin cfg1.N, isFirst (grid1.coords t) ↔ t.val % 16 = 0 :=
  (by decide +kernel : ∀ t : Fin grid1.N, isFirst (grid1.coords t) ↔ t.val % 16 = 0)

/-- "This is the row block's last column block": the body's second `scf.if`. -/
abbrev isLast (i : grid1.Coords) : Prop := k1_cond2 i = 1#1
/-- It holds at the points ≡ 15 (mod 16). -/
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem live_adj : ∀ t : Fin cfg1.N, cfg1.idle 0 (grid1.coords t) = false := by decide +kernel
theorem live_sup : ∀ t : Fin cfg1.N, cfg1.idle 1 (grid1.coords t) = false := by decide +kernel
theorem live_bias : ∀ t : Fin cfg1.N, cfg1.idle 2 (grid1.coords t) = false := by decide +kernel
/-- Away from a row block's last column block the body stores nothing into the output block, -/
theorem idle_out : ∀ t : Fin cfg1.N, ¬isLast (grid1.coords t) → cfg1.idle 3 (grid1.coords t) = true := by decide +kernel
/-- and the pipeline does not write it back there; -/
theorem noFlush_out : ∀ t : Fin cfg1.N, ¬isLast (grid1.coords t) → (cfg1.win 3).flush t = false := by decide +kernel
/-- at the last column block it does store into it. -/
theorem live_out : ∀ t : Fin cfg1.N, isLast (grid1.coords t) → cfg1.idle 3 (grid1.coords t) = false := by decide +kernel

/-! ## The memrefs the body is called with -/

abbrev ms1_0 (t : Fin cfg1.N) : Memref sig .tc .vmem S256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev accM : Memref sig .tc .vmem S256x256 .f32 := Memref.whole cc1_scratch0
/-- The accumulator as a view: what it holds is stated through it. -/
abbrev accV : View sig .tc .vmem S256x256 .f32 := accM.view
/-- One staging buffer of the output window, through which its contents are stated. -/
abbrev outV : View sig .tc .vmem S256x256 .f32 := (Memref.whole cc1_stg3_0 : Memref sig .tc .vmem S256x256 .f32).view

/-- What the region may use and need not describe: the first region's five staging buffers and the accumulator,
    each whole at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) accM fullShare d)) ∗ (∃ r, prngReg c r)) := by
  unfold Pipeline.ΦA; rw [scopedRest1_eq]; simp only [accM, owns_whole]; try rfl

/-! ## The body's run in each case -/

set_option maxHeartbeats 1000000 in
/-- FIRST column block (k = 0): the tiles at `x0`, `x1`, the accumulator at anything. The run clears the accumulator and
    adds the product; the pieces it leaves in the accumulator are its witness. -/
noncomputable def runFirst (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : isFirst i) (hc1 : ¬isLast i)
    (x0 : Vec F S256x256 .f32) (x1 : Vec F S256x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc1_aggregate_kernel i arg2 harg2 arg3 harg3 arg4 harg4 arg5 harg5 arg6 harg6) K } := by
  refine ⟨?_, fun E K => ?run⟩
  case run =>
    simp only [cc1_aggregate_kernel_eq_skeleton]; unfold cc1_aggregate_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- A MIDDLE column block (0 < k < 15): the tiles at `x0`, `x1`, the accumulator at what the point before left (`xs`).
    The run adds the product to it. -/
noncomputable def runMid (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : ¬isLast i)
    (x0 : Vec F S256x256 .f32) (x1 : Vec F S256x256 .f32) (xs : Vec F S256x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc1_aggregate_kernel i arg2 harg2 arg3 harg3 arg4 harg4 arg5 harg5 arg6 harg6) K } := by
  refine ⟨?_, fun E K => ?run⟩
  case run =>
    simp only [cc1_aggregate_kernel_eq_skeleton]; unfold cc1_aggregate_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- The LAST column block (k = 15): as a middle one, and then the accumulator plus the bias row (`x2`) is stored over
    the whole output block (handed in at anything). -/
noncomputable def runLast (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 : Vec F S256x256 .f32) (x1 : Vec F S256x256 .f32) (x2 : Vec F S1x256 .f32) (xs : Vec F S256x256 .f32) :
    Σ' (LO : List (View.Piece (Elt F) S256x256 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1_aggregate_kernel i arg2 harg2 arg3 harg3 arg4 harg4 arg5 harg5 arg6 harg6) K } := by
  refine ⟨?_, ?_, fun E K => ?run⟩
  case run =>
    simp only [cc1_aggregate_kernel_eq_skeleton]; unfold cc1_aggregate_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.ReferenceIdeal.Hand

end
-- ==== Proof.RAggregate.lean ====
/-
  The second region of the reference, continued: what the accumulator and the output block hold after each grid point.

  Write a(t), s(t), b(t) for the adjacency tile, the support tile and the bias row that point t reads. After point t the
  accumulator holds `accAt t`: at a row block's first column block (t ≡ 0 mod 16) the product a(t)·s(t) added to the
  cleared accumulator; at every other point the product added to `accAt (t - 1)`. At a row block's last column block
  (t ≡ 15 mod 16) the output block is stored as `accAt t` plus the bias row; at the other points the body leaves the
  output block alone and the pipeline does not write it back. The three runs of the body give exactly these contents
  (each run's one whole-block store read back as its payload), the region's invariant carries the accumulator at
  `accAt` of the point before, and so the body meets the pipeline's obligation at every point.
-/
import proofs.«110210_g2000605683403900_pallasbulk_842_20_alg».proof.Proof.Gen.ReferenceIdeal.Launch
import proofs.«110210_g2000605683403900_pallasbulk_842_20_alg».proof.Proof.Gen.ReferenceIdeal.Skeleton
import proofs.«110210_g2000605683403900_pallasbulk_842_20_alg».proof.Proof.Gen.ReferenceIdeal.Points
import proofs.«110210_g2000605683403900_pallasbulk_842_20_alg».proof.Proof.RAggRuns
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile's staging buffer holds the point's tile at every point. -/
theorem abefore_adj_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)

/-- The support tile's staging buffer holds the point's tile at every point, fetched there or not (within a row block's sweep the tile index moves with the column block). -/
theorem abefore_sup_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)

/-- The bias row's staging buffer holds the row at every point: it is fetched once and never moves. -/
theorem abefore_bias_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

/-! ## The three cases' contents as functions of what the point reads -/

/-- The offsets of every load and store of the body are zero. -/
theorem zero2 : (![0, 0] : Fin 2 → ℕ) = fun _ => 0 := by
  funext a; match a with | ⟨0, _⟩ => rfl | ⟨1, _⟩ => rfl

/-- The accumulator after a first column block: the product added to the cleared accumulator. -/
def accFirst (a s : Vec F S256x256 .f32) : Vec F S256x256 .f32 := k1_pay2 (k1_pay1 (F := F)) a s
/-- The accumulator after any other column block: the product added to what the point before left. -/
def accNext (prev a s : Vec F S256x256 .f32) : Vec F S256x256 .f32 := k1_pay2 prev a s
/-- The output block at a last column block: the accumulator plus the bias row. -/
def withBias (acc : Vec F S256x256 .f32) (b : Vec F S1x256 .f32) : Vec F S256x256 .f32 := k1_pay3 acc b

/-- What the first-block run leaves in the accumulator: its pieces read back. -/
def leftFirst (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : isFirst i) (hc1 : ¬isLast i)
    (x0 x1 : Vec F S256x256 .f32) : Vec F S256x256 .f32 :=
  accV.read (Elt F) (accV.writes (Elt F) accV.junk (runFirst c i arg2 harg2 arg3 harg3 arg4 harg4 arg5 harg5 arg6 harg6 hc0 hc1 x0 x1).1)

/-- Its pieces cover the accumulator (two whole-block stores). -/
theorem coverFirst (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : isFirst i) (hc1 : ¬isLast i)
    (x0 x1 : Vec F S256x256 .f32) (y : S256x256.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S256x256.size (by sl_kernel_rfl) y

/-- The last store wins: the accumulator ends at the product added to the cleared accumulator. -/
theorem leftFirst_eq (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : isFirst i) (hc1 : ¬isLast i)
    (x0 x1 : Vec F S256x256 .f32) :
    leftFirst c i arg2 harg2 arg3 harg3 arg4 harg4 arg5 harg5 arg6 harg6 hc0 hc1 x0 x1 = accFirst x0 x1 := by
  unfold leftFirst
  rw [View.read_writes_eq_canon _ _ _ (coverFirst c i arg2 harg2 arg3 harg3 arg4 harg4 arg5 harg5 arg6 harg6 hc0 hc1 x0 x1)]
  unfold runFirst; dsimp only; sl_unfold_words
  rw [View.canon_cons_unit_zero zero2]
  simp only [View.readCov_unit_zero (S := S256x256) _ zero2, View.readAt_eq_ld, harg2.read_unread, harg3.read_unread, View.ld_unit_zero (S := S256x256) zero2]
  rfl

/-- What a middle-block run leaves in the accumulator. -/
def leftMid (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : ¬isLast i)
    (x0 x1 xs : Vec F S256x256 .f32) : Vec F S256x256 .f32 :=
  accV.read (Elt F) (accV.writes (Elt F) accV.junk (runMid c i arg2 harg2 arg3 harg3 arg4 harg4 arg5 harg5 arg6 harg6 hc0 hc1 x0 x1 xs).1)

theorem coverMid (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : ¬isLast i)
    (x0 x1 xs : Vec F S256x256 .f32) (y : S256x256.Idx) :
    ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S256x256.size (by sl_kernel_rfl) y

theorem leftMid_eq (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : ¬isLast i)
    (x0 x1 xs : Vec F S256x256 .f32) :
    leftMid c i arg2 harg2 arg3 harg3 arg4 harg4 arg5 harg5 arg6 harg6 hc0 hc1 x0 x1 xs = accNext xs x0 x1 := by
  unfold leftMid
  rw [View.read_writes_eq_canon _ _ _ (coverMid c i arg2 harg2 arg3 harg3 arg4 harg4 arg5 harg5 arg6 harg6 hc0 hc1 x0 x1 xs)]
  unfold runMid; dsimp only; sl_unfold_words
  rw [View.canon_unit_zero zero2]
  simp only [View.readAt_eq_ld, harg2.read_unread, harg3.read_unread, harg6.read_unread, View.ld_unit_zero (S := S256x256) zero2]
  rfl

/-- What the last-block run leaves in the accumulator, -/
def leftLastAcc (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 x1 : Vec F S256x256 .f32) (x2 : Vec F S1x256 .f32) (xs : Vec F S256x256 .f32) : Vec F S256x256 .f32 :=
  accV.read (Elt F) (accV.writes (Elt F) accV.junk (runLast c i arg2 harg2 arg3 harg3 arg4 harg4 arg5 harg5 arg6 harg6 hc0 hc1 x0 x1 x2 xs).2.1)
/-- and in the output block. -/
def leftLastOut (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 x1 : Vec F S256x256 .f32) (x2 : Vec F S1x256 .f32) (xs : Vec F S256x256 .f32) : Vec F S256x256 .f32 :=
  outV.read (Elt F) (outV.writes (Elt F) outV.junk (runLast c i arg2 harg2 arg3 harg3 arg4 harg4 arg5 harg5 arg6 harg6 hc0 hc1 x0 x1 x2 xs).1)

theorem coverLastAcc (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 x1 : Vec F S256x256 .f32) (x2 : Vec F S1x256 .f32) (xs : Vec F S256x256 .f32) (y : S256x256.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S256x256.size (by sl_kernel_rfl) y
theorem coverLastOut (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 x1 : Vec F S256x256 .f32) (x2 : Vec F S1x256 .f32) (xs : Vec F S256x256 .f32) (y : S256x256.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S256x256.size (by sl_kernel_rfl) y

theorem leftLastAcc_eq (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 x1 : Vec F S256x256 .f32) (x2 : Vec F S1x256 .f32) (xs : Vec F S256x256 .f32) :
    leftLastAcc c i arg2 harg2 arg3 harg3 arg4 harg4 arg5 harg5 arg6 harg6 hc0 hc1 x0 x1 x2 xs = accNext xs x0 x1 := by
  unfold leftLastAcc
  rw [View.read_writes_eq_canon _ _ _ (coverLastAcc c i arg2 harg2 arg3 harg3 arg4 harg4 arg5 harg5 arg6 harg6 hc0 hc1 x0 x1 x2 xs)]
  unfold runLast; dsimp only; sl_unfold_words
  rw [View.canon_unit_zero zero2]
  simp only [View.readAt_eq_ld, harg2.read_unread, harg3.read_unread, harg6.read_unread, View.ld_unit_zero (S := S256x256) zero2]
  rfl

theorem leftLastOut_eq (c : Dev nD) (i : grid1.Coords) (arg2 : Memref sig .tc .vmem S256x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬isFirst i) (hc1 : isLast i)
    (x0 x1 : Vec F S256x256 .f32) (x2 : Vec F S1x256 .f32) (xs : Vec F S256x256 .f32) :
    leftLastOut c i arg2 harg2 arg3 harg3 arg4 harg4 arg5 harg5 arg6 harg6 hc0 hc1 x0 x1 x2 xs = withBias (accNext xs x0 x1) x2 := by
  unfold leftLastOut
  rw [View.read_writes_eq_canon _ _ _ (coverLastOut c i arg2 harg2 arg3 harg3 arg4 harg4 arg5 harg5 arg6 harg6 hc0 hc1 x0 x1 x2 xs)]
  unfold runLast; dsimp only; sl_unfold_words
  rw [View.canon_unit_zero zero2]
  simp only [View.readCov_unit_zero (S := S256x256) _ zero2, View.readAt_eq_ld, harg2.read_unread, harg3.read_unread, harg4.read_unread, harg6.read_unread, View.ld_unit_zero (S := S256x256) zero2, View.ld_unit_zero (S := S1x256) zero2]
  rfl

/-! ## The accumulation over the grid -/

/-- THE ACCUMULATION: what the accumulator holds after the body at position `n`. -/
def accAt (c : Dev nD) : (n : ℕ) → n < cfg1.N → Vec F S256x256 .f32
  | 0, hn => accFirst (ablk V c 0 ⟨0, hn⟩) (ablk V c 1 ⟨0, hn⟩)
  | n + 1, hn =>
    if (n + 1) % 16 = 0 then accFirst (ablk V c 0 ⟨n + 1, hn⟩) (ablk V c 1 ⟨n + 1, hn⟩)
    else accNext (accAt c n (Nat.lt_of_succ_lt hn)) (ablk V c 0 ⟨n + 1, hn⟩) (ablk V c 1 ⟨n + 1, hn⟩)

/-- At a row block's first column block the accumulation starts afresh. -/
theorem accAt_first (c : Dev nD) (t : Fin cfg1.N) (h : t.val % 16 = 0) :
    accAt V c t.val t.isLt = accFirst (ablk V c 0 t) (ablk V c 1 t) := by
  obtain ⟨n, hn⟩ := t
  cases n with
  | zero => rfl
  | succ n => exact if_pos h

/-- At every other point it adds to what the point before left. -/
theorem accAt_next (c : Dev nD) (t : Fin cfg1.N) (h : ¬t.val % 16 = 0) :
    accAt V c t.val t.isLt = accNext (accAt V c (t.val - 1) (Nat.lt_of_le_of_lt (Nat.sub_le _ _) t.isLt)) (ablk V c 0 t) (ablk V c 1 t) := by
  obtain ⟨n, hn⟩ := t
  cases n with
  | zero => exact absurd (Nat.zero_mod _) h
  | succ n => exact if_neg h

/-- What the output block holds after the body at a last column block. -/
def outAt (c : Dev nD) (n : ℕ) (hn : n < cfg1.N) : Vec F S256x256 .f32 :=
  withBias (accAt V c n hn) (ablk V c 2 ⟨n, hn⟩)

/-- The region's invariant before position `n`: before the first point whatever the launch hands over; afterwards the first
    region's staging buffers at anything, the accumulator at what the point before left, and the generator register. -/
def carried (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) accM fullShare (accAt V c n hn)) ∗ (∃ r, prngReg c r))

theorem carried_zero (c : Dev nD) (n : ℕ) (h : n ≤ cfg1.N) (hz : n = 0) : carried V c n h = Pipeline.ΦA spec1 c := by
  subst hz; rfl

theorem carried_succ (c : Dev nD) (n : ℕ) (hn : n < cfg1.N) :
    carried V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) accM fullShare (accAt V c n hn)) ∗ (∃ r, prngReg c r)) := rfl

theorem carried_pos (c : Dev nD) (n : ℕ) (h : n ≤ cfg1.N) (hz : n ≠ 0) :
    carried V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) accM fullShare (accAt V c (n - 1) (by omega))) ∗ (∃ r, prngReg c r)) := by
  cases n with
  | zero => exact absurd rfl hz
  | succ n => rfl

/-! ## The region's proof data -/

/-- The proof data: the arrays as the region finds them; after the body each input's buffer at its block and the
    output block at `outAt`; the invariant `carried`; nothing owed; full shares. -/
def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => outAt V c t.val t.isLt
  Φ t := carried V c t.val (Nat.le_of_lt_succ t.isLt)
  q _ := fullShare
  owed _ := 0

theorem adat_A (c : Dev nD) (w : Fin cfg1.W) : (adat V c).A w = V c (Pipeline.arrRef spec1 w) := by
  dsimp only [adat]

theorem carried_castSucc (c : Dev nD) (t : Fin cfg1.N) :
    (adat V c).Φ t.castSucc = carried V c t.val (Nat.le_of_lt t.isLt) := by
  dsimp only [adat]; simp only [Fin.coe_castSucc]

theorem aafter_adj (c : Dev nD) (t : Fin cfg1.N) : (adat V c).after 0 t = ablk V c 0 t := by dsimp only [adat]
theorem aafter_sup (c : Dev nD) (t : Fin cfg1.N) : (adat V c).after 1 t = ablk V c 1 t := by dsimp only [adat]
theorem aafter_bias (c : Dev nD) (t : Fin cfg1.N) : (adat V c).after 2 t = ablk V c 2 t := by dsimp only [adat]
theorem aafter_out (c : Dev nD) (t : Fin cfg1.N) : (adat V c).after 3 t = outAt V c t.val t.isLt := by dsimp only [adat]

theorem abefore_adj (c : Dev nD) (t : Fin cfg1.N) (d) : (adat V c).before 0 t d = ablk V c 0 t :=
  abefore_adj_of V (adat V c) (adat_A V c 0) (aafter_adj V c) t d
theorem abefore_sup (c : Dev nD) (t : Fin cfg1.N) (d) : (adat V c).before 1 t d = ablk V c 1 t :=
  abefore_sup_of V (adat V c) (adat_A V c 1) (aafter_sup V c) t d
theorem abefore_bias (c : Dev nD) (t : Fin cfg1.N) (d) : (adat V c).before 2 t d = ablk V c 2 t :=
  abefore_bias_of V (adat V c) (adat_A V c 2) (aafter_bias V c) t d

/-! ## The body obligation -/

/-- What the body is called with at point `t`, -/
def abodyPre (c : Dev nD) (t : Fin cfg1.N) : sProp 𝕄 :=
  iprop((adat V c).Φ t.castSucc ∗ (adat V c).owesAt () t.castSucc
    ∗ (∃ d, owns (c : Thread nD τ) (ms1_0 t) fullShare ((adat V c).before 0 t d))
    ∗ (∃ d, owns (c : Thread nD τ) (ms1_1 t) fullShare ((adat V c).before 1 t d))
    ∗ (∃ d, owns (c : Thread nD τ) (ms1_2 t) fullShare ((adat V c).before 2 t d))
    ∗ (∃ d, owns (c : Thread nD τ) (ms1_3 t) fullShare ((adat V c).before 3 t d)))

/-- and what it returns. -/
def abodyPost (c : Dev nD) (t : Fin cfg1.N) : sProp 𝕄 :=
  iprop((adat V c).Φ t.succ ∗ (adat V c).owesAt () t.succ
    ∗ (adat V c).leavesExact 0 t
    ∗ (adat V c).leavesExact 1 t
    ∗ (adat V c).leavesExact 2 t
    ∗ (adat V c).leavesExact 3 t)

set_option maxHeartbeats 4800000 in
/-- The body at any point: the inputs' buffers hold their blocks; the closed forms say which of the three cases the point
    is in; the invariant hands the body the accumulator at what the point before left (at anything before the very first
    point) and takes it back at this point's contents; away from a last column block the output block is handed back
    untouched. -/
theorem agg_sound (c : Dev nD) (t : Fin cfg1.N) :
    abodyPre V c t ⊢ wp frame (wpE (defs₀ (F := F)) Variants.none c none) Set.univ (bodyAt1 t) (fun _ => abodyPost V c t) := by
  unfold abodyPre abodyPost bodyAt1
  simp only [abefore_adj, abefore_sup, abefore_bias]
  rw [show (adat V c).owesAt () t.succ = (adat V c).owesAt () t.castSucc from rfl]
  rw [show (adat V c).Φ t.succ = carried V c (t.val + 1) t.isLt from rfl, carried_succ]
  have hN : t.val < 256 := lt_of_lt_of_eq t.isLt (show cfg1.N = 256 from N_1)
  by_cases h0 : t.val % 16 = 0
  · have h1 : ¬t.val % 16 = 15 := by omega
    rw [show (adat V c).leavesExact 0 t = owns (c : Thread nD τ) (ms1_0 t) fullShare ((adat V c).after 0 t) from by
      unfold Dat.leavesExact; rw [live_adj t], aafter_adj]
    rw [show (adat V c).leavesExact 1 t = owns (c : Thread nD τ) (ms1_1 t) fullShare ((adat V c).after 1 t) from by
      unfold Dat.leavesExact; rw [live_sup t], aafter_sup]
    rw [show (adat V c).leavesExact 2 t = owns (c : Thread nD τ) (ms1_2 t) fullShare ((adat V c).after 2 t) from by
      unfold Dat.leavesExact; rw [live_bias t], aafter_bias]
    rw [Dat.leavesExact_idle (adat V c) 3 t (idle_out t (fun h => h1 ((isLast_iff t).mp h))) (noFlush_out t (fun h => h1 ((isLast_iff t).mp h)))]
    rw [accAt_first V c t h0]
    have e := leftFirst_eq c (grid1.coords t) (ms1_0 t) (hs1_0 t) (ms1_1 t) (hs1_1 t) (ms1_2 t) (hs1_2 t) (ms1_3 t) (hs1_3 t) accM (Memref.isWhole_whole _) ((isFirst_iff t).mpr h0) (fun h => h1 ((isLast_iff t).mp h)) (ablk V c 0 t) (ablk V c 1 t)
    unfold leftFirst at e
    by_cases hz : t.val = 0
    · rw [carried_castSucc V c t, carried_zero V c _ _ hz, PhiA1_eq]
      iintro ⟨⟨⟨R0, R1, R2, R3, R4, HS⟩, Hg⟩, Ho, ⟨%d0, H0⟩, ⟨%d1, H1⟩, ⟨%d2, H2⟩, ⟨%d3, H3⟩⟩
      iapply ((runFirst c (grid1.coords t) (ms1_0 t) (hs1_0 t) (ms1_1 t) (hs1_1 t) (ms1_2 t) (hs1_2 t) (ms1_3 t) (hs1_3 t) accM (Memref.isWhole_whole _) ((isFirst_iff t).mpr h0) (fun h => h1 ((isLast_iff t).mp h)) (ablk V c 0 t) (ablk V c 1 t)).2 Set.univ _)
      isplitl [H0]; · iexact H0
      isplitl [H1]; · iexact H1
      isplitl [HS]; · iexact HS
      iintro ⟨H0, H1, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact (View.read_writes_of_cover _ _ _ _ _ (coverFirst c _ _ _ _ _ _ _ _ _ _ _ _ _ _ _)).trans e
        iexact Hg
      isplitl [Ho]; · iexact Ho
      isplitl [H0]; · iexact H0
      isplitl [H1]; · iexact H1
      isplitl [H2]; · iexact H2
      iexists _; iexact H3
    · rw [carried_castSucc V c t, carried_pos V c _ _ hz]
      iintro ⟨⟨⟨R0, R1, R2, R3, R4, HS⟩, Hg⟩, Ho, ⟨%d0, H0⟩, ⟨%d1, H1⟩, ⟨%d2, H2⟩, ⟨%d3, H3⟩⟩
      iapply ((runFirst c (grid1.coords t) (ms1_0 t) (hs1_0 t) (ms1_1 t) (hs1_1 t) (ms1_2 t) (hs1_2 t) (ms1_3 t) (hs1_3 t) accM (Memref.isWhole_whole _) ((isFirst_iff t).mpr h0) (fun h => h1 ((isLast_iff t).mp h)) (ablk V c 0 t) (ablk V c 1 t)).2 Set.univ _)
      isplitl [H0]; · iexact H0
      isplitl [H1]; · iexact H1
      isplitl [HS]; · iexists _; iexact HS
      iintro ⟨H0, H1, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact (View.read_writes_of_cover _ _ _ _ _ (coverFirst c _ _ _ _ _ _ _ _ _ _ _ _ _ _ _)).trans e
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 16 = 15
    · rw [show (adat V c).leavesExact 0 t = owns (c : Thread nD τ) (ms1_0 t) fullShare ((adat V c).after 0 t) from by
        unfold Dat.leavesExact; rw [live_adj t], aafter_adj]
      rw [show (adat V c).leavesExact 1 t = owns (c : Thread nD τ) (ms1_1 t) fullShare ((adat V c).after 1 t) from by
        unfold Dat.leavesExact; rw [live_sup t], aafter_sup]
      rw [show (adat V c).leavesExact 2 t = owns (c : Thread nD τ) (ms1_2 t) fullShare ((adat V c).after 2 t) from by
        unfold Dat.leavesExact; rw [live_bias t], aafter_bias]
      rw [show (adat V c).leavesExact 3 t = owns (c : Thread nD τ) (ms1_3 t) fullShare ((adat V c).after 3 t) from by
        unfold Dat.leavesExact; rw [live_out t ((isLast_iff t).mpr h1)], aafter_out]
      unfold outAt
      rw [accAt_next V c t h0]
      have eA := leftLastAcc_eq c (grid1.coords t) (ms1_0 t) (hs1_0 t) (ms1_1 t) (hs1_1 t) (ms1_2 t) (hs1_2 t) (ms1_3 t) (hs1_3 t) accM (Memref.isWhole_whole _) (fun h => h0 ((isFirst_iff t).mp h)) ((isLast_iff t).mpr h1) (ablk V c 0 t) (ablk V c 1 t) (ablk V c 2 t) (accAt V c (t.val - 1) (Nat.lt_of_le_of_lt (Nat.sub_le _ _) t.isLt))
      have eO := leftLastOut_eq c (grid1.coords t) (ms1_0 t) (hs1_0 t) (ms1_1 t) (hs1_1 t) (ms1_2 t) (hs1_2 t) (ms1_3 t) (hs1_3 t) accM (Memref.isWhole_whole _) (fun h => h0 ((isFirst_iff t).mp h)) ((isLast_iff t).mpr h1) (ablk V c 0 t) (ablk V c 1 t) (ablk V c 2 t) (accAt V c (t.val - 1) (Nat.lt_of_le_of_lt (Nat.sub_le _ _) t.isLt))
      unfold leftLastAcc at eA
      unfold leftLastOut at eO
      rw [carried_castSucc V c t, carried_pos V c _ _ hz]
      iintro ⟨⟨⟨R0, R1, R2, R3, R4, HS⟩, Hg⟩, Ho, ⟨%d0, H0⟩, ⟨%d1, H1⟩, ⟨%d2, H2⟩, ⟨%d3, H3⟩⟩
      iapply ((runLast c (grid1.coords t) (ms1_0 t) (hs1_0 t) (ms1_1 t) (hs1_1 t) (ms1_2 t) (hs1_2 t) (ms1_3 t) (hs1_3 t) accM (Memref.isWhole_whole _) (fun h => h0 ((isFirst_iff t).mp h)) ((isLast_iff t).mpr h1) (ablk V c 0 t) (ablk V c 1 t) (ablk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact (View.read_writes_of_cover _ _ _ _ _ (coverLastAcc c _ _ _ _ _ _ _ _ _ _ _ _ _ _ _ _ _)).trans eA
        iexact Hg
      isplitl [Ho]; · iexact Ho
      isplitl [H0]; · iexact H0
      isplitl [H1]; · iexact H1
      isplitl [H2]; · iexact H2
      unfold owns; iexists _; isplitr
      swap; · iexact H3
      ipureintro; exact (View.read_writes_of_cover _ _ _ _ _ (coverLastOut c _ _ _ _ _ _ _ _ _ _ _ _ _ _ _ _ _)).trans eO
    · rw [show (adat V c).leavesExact 0 t = owns (c : Thread nD τ) (ms1_0 t) fullShare ((adat V c).after 0 t) from by
        unfold Dat.leavesExact; rw [live_adj t], aafter_adj]
      rw [show (adat V c).leavesExact 1 t = owns (c : Thread nD τ) (ms1_1 t) fullShare ((adat V c).after 1 t) from by
        unfold Dat.leavesExact; rw [live_sup t], aafter_sup]
      rw [show (adat V c).leavesExact 2 t = owns (c : Thread nD τ) (ms1_2 t) fullShare ((adat V c).after 2 t) from by
        unfold Dat.leavesExact; rw [live_bias t], aafter_bias]
      rw [Dat.leavesExact_idle (adat V c) 3 t (idle_out t (fun h => h1 ((isLast_iff t).mp h))) (noFlush_out t (fun h => h1 ((isLast_iff t).mp h)))]
      rw [accAt_next V c t h0]
      have e := leftMid_eq c (grid1.coords t) (ms1_0 t) (hs1_0 t) (ms1_1 t) (hs1_1 t) (ms1_2 t) (hs1_2 t) (ms1_3 t) (hs1_3 t) accM (Memref.isWhole_whole _) (fun h => h0 ((isFirst_iff t).mp h)) (fun h => h1 ((isLast_iff t).mp h)) (ablk V c 0 t) (ablk V c 1 t) (accAt V c (t.val - 1) (Nat.lt_of_le_of_lt (Nat.sub_le _ _) t.isLt))
      unfold leftMid at e
      rw [carried_castSucc V c t, carried_pos V c _ _ hz]
      iintro ⟨⟨⟨R0, R1, R2, R3, R4, HS⟩, Hg⟩, Ho, ⟨%d0, H0⟩, ⟨%d1, H1⟩, ⟨%d2, H2⟩, ⟨%d3, H3⟩⟩
      iapply ((runMid c (grid1.coords t) (ms1_0 t) (hs1_0 t) (ms1_1 t) (hs1_1 t) (ms1_2 t) (hs1_2 t) (ms1_3 t) (hs1_3 t) accM (Memref.isWhole_whole _) (fun h => h0 ((isFirst_iff t).mp h)) (fun h => h1 ((isLast_iff t).mp h)) (ablk V c 0 t) (ablk V c 1 t) _).2 Set.univ _)
      isplitl [H0]; · iexact H0
      isplitl [H1]; · iexact H1
      isplitl [HS]; · iexact HS
      iintro ⟨H0, H1, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact (View.read_writes_of_cover _ _ _ _ _ (coverMid c _ _ _ _ _ _ _ _ _ _ _ _ _ _ _ _)).trans e
        iexact Hg
      isplitl [Ho]; · iexact Ho
      isplitl [H0]; · iexact H0
      isplitl [H1]; · iexact H1
      isplitl [H2]; · iexact H2
      iexists _; iexact H3

/-- The library's body obligation, at every point. -/
theorem agg_obligation (c : Dev nD) : BodyObligation (adat (F := F) V c) (defs₀ (F := F)) Variants.none () Set.univ := fun t => by
  rw [bigSep_W1, bigSep_W1]
  exact agg_sound V c t

/-- What the launch hands the region is the invariant before the first point. -/
theorem agg_in (c : Dev nD) : Pipeline.ΦA spec1 c ⊢ (adat V c).Φ 0 := by
  rw [show (adat V c).Φ 0 = carried V c 0 (Nat.zero_le _) from rfl, carried_zero V c 0 _ rfl]
  try exact Idealize.SL.BI.Entails.refl _

/-- After the last point the invariant gives that back: the accumulator's named contents are forgotten. -/
theorem agg_out (c : Dev nD) : (adat V c).Φ (Fin.last cfg1.N) ⊢ Pipeline.ΦA spec1 c := by
  rw [show (adat V c).Φ (Fin.last cfg1.N) = carried V c (Fin.last cfg1.N).val (Nat.le_of_lt_succ (Fin.last cfg1.N).isLt) from rfl,
    carried_pos V c _ _ (by rw [Fin.val_last]; have : cfg1.N = 256 := N_1; omega), PhiA1_eq]
  iintro ⟨⟨R0, R1, R2, R3, R4, HS⟩, Hg⟩
  isplitl [R0 R1 R2 R3 R4 HS]
  · isplitl [R0]; · iexact R0
    isplitl [R1]; · iexact R1
    isplitl [R2]; · iexact R2
    isplitl [R3]; · iexact R3
    isplitl [R4]; · iexact R4
    iexists _; iexact HS
  iexact Hg

end Cert.ReferenceIdeal.Hand

end
-- ==== Proof.RRun.lean ====
/-
  The reference's whole run. @main is eight short stretches of host operations (four zero-width pads, each with the
  conversion of its padding value, and the reshape of the bias to one row), then the support region, then the
  aggregation region. The contents of the core's buffers at each boundary are a fold from the launch memory: after a
  host stretch, the stretch's operations applied; after a region, the region's arrays at what its write-backs leave
  and every other buffer as it was. Over these boundaries each host stretch is a segment by itself, each region a
  segment given its body obligation (the two modules before this one), and the launch theorem for a program of
  several regions gives: every weakly fair execution of @main terminates, the result array ends at what the
  aggregation region's write-backs leave, and the four argument arrays end as launched — no host operation and no
  region writes one.
-/
import proofs.«110210_g2000605683403900_pallasbulk_842_20_alg».proof.Proof.Gen.ReferenceIdeal.Launch
import proofs.«110210_g2000605683403900_pallasbulk_842_20_alg».proof.Proof.Gen.ReferenceIdeal.Skeleton
import proofs.«110210_g2000605683403900_pallasbulk_842_20_alg».proof.Proof.Gen.ReferenceIdeal.Points
import proofs.«110210_g2000605683403900_pallasbulk_842_20_alg».proof.Proof.Gen.ReferenceIdeal.Regions
import proofs.«110210_g2000605683403900_pallasbulk_842_20_alg».proof.Proof.RSupport
import proofs.«110210_g2000605683403900_pallasbulk_842_20_alg».proof.Proof.RAggregate
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- The contents when the support region is entered, read at the TensorCore's references: the launch memory after
    the eight host stretches. -/
abbrev V8r : (c : Dev nD) → (b : Ref sig .tc) → Buf (Elt F) ((c : Thread nD τ).loc b) := fun c b => V8 m c b

/-- At the support region's exit: its arrays at what the pipeline leaves, every other buffer as entered. -/
def W9 (c : Dev nD) : Valuation τ sig (Elt F) :=
  Pipeline.withArrays spec0 c (V8 m c) fun w => (sdat (V8r m) c).arrAt w cfg0.N
theorem W9_arr (c : Dev nD) (w : Fin cfg0.W) :
    W9 m c (Proc.devRef .tc (Pipeline.arrRef spec0 w)) = (sdat (V8r m) c).arrAt w cfg0.N := by
  unfold W9; exact Pipeline.withArrays_arr spec0 launch0.win.arr_inj c _ _ w
theorem W9_of_ne' (c : Dev nD) (b : Ref sig .tc) (hb : ∀ w, Pipeline.arrRef spec0 w ≠ b) :
    W9 m c (Proc.devRef .tc b) = V8 m c (Proc.devRef .tc b) := by
  unfold W9; exact Pipeline.withArrays_of_ne spec0 c _ _ b hb
/-- The same read at the TensorCore's references: what the aggregation region finds. -/
abbrev V9r : (c : Dev nD) → (b : Ref sig .tc) → Buf (Elt F) ((c : Thread nD τ).loc b) := fun c b => W9 m c b
theorem hF0 (c : Dev nD) (w : Fin cfg0.W) : (sdat (V8r m) c).arrAt w cfg0.N = V9r m c (Pipeline.arrRef spec0 w) :=
  (W9_arr m c w).symm
theorem hrest0 (c : Dev nD) : ∀ b, b ∉ Finset.univ.image (Pipeline.arrRef spec0) → V9r m c b = V8r m c b :=
  fun b hb => W9_of_ne' m c b fun w e => hb (Finset.mem_image.mpr ⟨w, Finset.mem_univ _, e⟩)

/-- At the aggregation region's exit: its arrays at what the pipeline leaves, every other buffer as entered. -/
def W10' (c : Dev nD) : Valuation τ sig (Elt F) :=
  Pipeline.withArrays spec1 c (W9 m c) fun w => (adat (V9r m) c).arrAt w cfg1.N
theorem W10_arr (c : Dev nD) (w : Fin cfg1.W) :
    W10' m c (Proc.devRef .tc (Pipeline.arrRef spec1 w)) = (adat (V9r m) c).arrAt w cfg1.N := by
  unfold W10'; exact Pipeline.withArrays_arr spec1 launch1.win.arr_inj c _ _ w
theorem W10_of_ne' (c : Dev nD) (b : Ref sig .tc) (hb : ∀ w, Pipeline.arrRef spec1 w ≠ b) :
    W10' m c (Proc.devRef .tc b) = W9 m c (Proc.devRef .tc b) := by
  unfold W10'; exact Pipeline.withArrays_of_ne spec1 c _ _ b hb
abbrev V10r : (c : Dev nD) → (b : Ref sig .tc) → Buf (Elt F) ((c : Thread nD τ).loc b) := fun c b => W10' m c b
theorem hF1 (c : Dev nD) (w : Fin cfg1.W) : (adat (V9r m) c).arrAt w cfg1.N = V10r m c (Pipeline.arrRef spec1 w) :=
  (W10_arr m c w).symm
theorem hrest1 (c : Dev nD) : ∀ b, b ∉ Finset.univ.image (Pipeline.arrRef spec1) → V10r m c b = V9r m c b :=
  fun b hb => W10_of_ne' m c b fun w e => hb (Finset.mem_image.mpr ⟨w, Finset.mem_univ _, e⟩)

/-! ## The arguments end as launched -/

/-- No host stretch writes `main_arg0` and no region may change it. -/
theorem W10_main_arg0 (c : Dev nD) : W10' m c (Proc.devRef .tc main_arg0) = m ((c : Thread nD τ).loc main_arg0) :=
  (W10_of_ne' m c main_arg0 (by decide)).trans <| (W9_of_ne' m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
/-- No host stretch writes `main_arg1` and no region may change it. -/
theorem W10_main_arg1 (c : Dev nD) : W10' m c (Proc.devRef .tc main_arg1) = m ((c : Thread nD τ).loc main_arg1) :=
  (W10_of_ne' m c main_arg1 (by decide)).trans <| (W9_of_ne' m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
/-- No host stretch writes `main_arg2` and no region may change it. -/
theorem W10_main_arg2 (c : Dev nD) : W10' m c (Proc.devRef .tc main_arg2) = m ((c : Thread nD τ).loc main_arg2) :=
  (W10_of_ne' m c main_arg2 (by decide)).trans <| (W9_of_ne' m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
/-- No host stretch writes `main_arg3` and no region may change it. -/
theorem W10_main_arg3 (c : Dev nD) : W10' m c (Proc.devRef .tc main_arg3) = m ((c : Thread nD τ).loc main_arg3) :=
  (W10_of_ne' m c main_arg3 (by decide)).trans <| (W9_of_ne' m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => sdat (V8r m) c
  | ⟨1, _⟩ => fun c => adat (V9r m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W10' m c) ∗ ∃ r, prngReg c r)

/-! ## The regions as segments -/

set_option backward.isDefEq.respectTransparency.types false in
/-- The support region: entered from every unscoped buffer at the contents after the host stretches, left with its
    output array at what its write-backs leave. -/
def regSupport : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (support_obligation (V8r m) c).loose
  hwaits := Pipeline.hwaits_of_owed_zero _ _ _ _ L lv 0 fun _ _ => rfl
  pre c := iprop(StableHlo.held (c : Thread nD τ) (Pipeline.ucRefs τ sig) (V8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (V8r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V8r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V8r m c) (V9r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation region: entered from the support region's exit contents, left with the result array at what its
    write-backs leave. The accumulator goes in at anything and comes back at anything: the invariant names its contents
    only between points. -/
def regAggregate : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (agg_obligation (V9r m) c).loose
  hwaits := Pipeline.hwaits_of_owed_zero _ _ _ _ L lv 1 fun _ _ => rfl
  pre c := iprop(StableHlo.held (c : Thread nD τ) (Pipeline.ucRefs τ sig) (W9 m c) ∗ R c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V9r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from agg_out (V9r m) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9r m c) (V10r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .region (regSupport m),
    .region (regAggregate m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting;
    the result array ends at what the aggregation region's write-backs leave, and the arguments end as launched. -/
theorem run : θ_run defs (onTc (τ := τ) (main (F := F))) ⟨m, fun _ => 0, ρ⟩ (fun r => ∀ c : Dev nD,
      r.2.mem ((c.tc : Thread nD τ).loc main_v6) = (adat (V9r m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10' m c b)
    (hfin := fun c s' => by
      iintro ⟨⟨Hh, -⟩, HSI⟩
      unfold StableHlo.held
      imodintro
      iapply (pointsTo_read_all (Pipeline.ucRefs τ sig) (fun b => (((c : Thread nD τ)).1, b)) (W10' m c) s')
      isplitl [Hh] <;> iassumption)
    (hQ := fun s h c =>
      ⟨(h c _ (mem_uc main_v6 (by decide))).trans (W10_arr m c 3),
       (h c _ (mem_uc main_arg0 (by decide))).trans (W10_main_arg0 m c),
       (h c _ (mem_uc main_arg1 (by decide))).trans (W10_main_arg1 m c),
       (h c _ (mem_uc main_arg2 (by decide))).trans (W10_main_arg2 m c),
       (h c _ (mem_uc main_arg3 (by decide))).trans (W10_main_arg3 m c)⟩)

end Cert.ReferenceIdeal.Hand

end
-- ==== Proof.RAggValue.lean ====
/-
  The value of the reference's second region. Write A, S, B for the adjacency, the support and the bias row as the
  region finds them. Grid point t = 16·i + k reads the adjacency tile (i, k), the support tile (k, ·) and the bias row.
  Read at an index, the three things the body can store are: the cleared accumulator plus the tile product; the
  previous accumulator plus the tile product; the accumulator plus the bias row. So by induction along a row block's
  sweep the accumulator after point t holds, at (p, q), the specification's running sum `partialSum A S (256·i + p) q k`,
  the block written back at k = 15 is block i of `blockedOf A S B`, and these sixteen blocks tile the result array.
-/
import proofs.«110210_g2000605683403900_pallasbulk_842_20_alg».proof.Proof.RAggregate
import proofs.«110210_g2000605683403900_pallasbulk_842_20_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.Gcn

open Idealize.ShloMosaic Idealize.ShloMosaic.ValueIdx

/-- adj · s + b accumulated block by block, for any support `s`. -/
def blockedOf (adj : SA.Idx → EReal) (s : SX.Idx → EReal) (b : SB.Idx → EReal) : SX.Idx → EReal :=
  fun i => partialSum adj s (i 0) (i 1) 15 + b (ix2 (0 : Fin 1) (i 1))

theorem blockedOf_ix2 (adj : SA.Idx → EReal) (s : SX.Idx → EReal) (b : SB.Idx → EReal) (r : Fin 4096) (j : Fin 256) :
    blockedOf adj s b (ix2 r j) = partialSum adj s r j 15 + b (ix2 (0 : Fin 1) j) := rfl

/-- The specification's blocked arrangement is this one at the support x · W. -/
theorem blocked_eq_blockedOf (adj : SA.Idx → EReal) (x : SX.Idx → EReal) (w : SW.Idx → EReal) (b : SB.Idx → EReal) :
    blocked adj x w b = blockedOf adj (support x w) b := rfl

end Cert.Gcn

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat)
open Cert.Gcn (col col_val partialSum partialSum_zero partialSum_succ blockDot blockedOf blockedOf_ix2)

/-! ## The three payloads read at an index -/

/-- The tile product's dimension numbers: rows × contraction times contraction × columns. -/
abbrev tileDims : DotDims S256x256 S256x256 S256x256 := dot_S256x256_S256x256_S256x256_1_0_0_1_n_n

/-- At output index (r, c) and contraction index k the operands are read at (r, k) and (k, c). -/
theorem tile_coords (i : S256x256.Idx) (k : tileDims.contr.Idx) :
    (tileDims.lhsIdx i k 0).val = (i 0).val ∧ (tileDims.lhsIdx i k 1).val = (k ⟨0, by decide⟩).val
    ∧ (tileDims.rhsIdx i k 0).val = (k ⟨0, by decide⟩).val ∧ (tileDims.rhsIdx i k 1).val = (i 1).val :=
  ⟨rfl, rfl, rfl, rfl⟩

/-- A tile product into the zero accumulator, at (p, q): the sum over the 256 shared coordinates. -/
theorem tile_product_apply (a b : FVec Ideal S256x256 .f32) (p q : Fin 256) :
    matmul tileDims none a b (constant (F := Ideal) S256x256 .f32 0x00000000#32) (ix2 p q) = ∑ l : Fin 256, a (ix2 p l) * b (ix2 l q) := by
  show FloatOps.matmul tileDims none a b (constant (F := Ideal) S256x256 .f32 0x00000000#32) (ix2 p q) = _
  rw [Ideal.matmul_constant_zero_apply, ← Equiv.sum_comp (contrEquiv1 tileDims 256 rfl rfl).symm]
  refine Finset.sum_congr rfl fun l _ => ?_
  have hl := contrEquiv1_symm_val tileDims 256 rfl rfl l
  obtain ⟨c0, c1, c2, c3⟩ := tile_coords (ix2 p q) ((contrEquiv1 tileDims 256 rfl rfl).symm l)
  have el : tileDims.lhsIdx (ix2 p q) ((contrEquiv1 tileDims 256 rfl rfl).symm l) = ix2 p l :=
    funext fun ax => Fin.ext (by match ax with | ⟨0, _⟩ => exact c0 | ⟨1, _⟩ => exact c1.trans hl)
  have er : tileDims.rhsIdx (ix2 p q) ((contrEquiv1 tileDims 256 rfl rfl).symm l) = ix2 l q :=
    funext fun ax => Fin.ext (by match ax with | ⟨0, _⟩ => exact c2.trans hl | ⟨1, _⟩ => exact c3)
  rw [el, er]

/-- After a first column block: zero plus the tile product. -/
theorem accFirst_apply (a s : Vec Ideal S256x256 .f32) (p q : Fin 256) :
    accFirst (F := Ideal) a s (ix2 p q) = 0 + ∑ l : Fin 256, a (ix2 p l) * s (ix2 l q) := by
  unfold accFirst k1_pay2 k1_pay1
  simp only [shapeCast_self]
  rw [addf_apply, broadcast_apply]
  refine (congrArg (_ + ·) (tile_product_apply a s p q)).trans ?_
  show Ideal.ofBits .f32 0x00000000#32 + _ = _
  rw [Ideal.ofBits_zero_f32]

/-- After any other column block: what was there plus the tile product. -/
theorem accNext_apply (prev a s : Vec Ideal S256x256 .f32) (p q : Fin 256) :
    accNext (F := Ideal) prev a s (ix2 p q) = prev (ix2 p q) + ∑ l : Fin 256, a (ix2 p l) * s (ix2 l q) := by
  unfold accNext k1_pay2
  simp only [shapeCast_self]
  rw [addf_apply]
  exact congrArg (_ + ·) (tile_product_apply a s p q)

/-- The output block at a last column block: the accumulator plus the bias row's entry of the column. -/
theorem withBias_apply (acc : Vec Ideal S256x256 .f32) (b : Vec Ideal S1x256 .f32) (p q : Fin 256) :
    withBias (F := Ideal) acc b (ix2 p q) = acc (ix2 p q) + b (ix2 (0 : Fin 1) q) := by
  unfold withBias k1_pay3
  simp only [shapeCast_self]
  rw [addf_apply, broadcastTo_1b_ab_apply]

variable (V : (c : Dev nD) → (b : Ref sig .tc) → Buf (Elt Ideal) ((c : Thread nD τ).loc b))

/-! ## Where the index maps put the tiles -/

/-- The printed index maps over the grid: point t reads adjacency tile (t / 16, t mod 16), support tile (t mod 16, 0),
    the one bias row, and holds output block (t / 16, 0). -/
theorem agg_idx : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

/-- The adjacency tile at point 16·i + k, entry (p, l), is the adjacency at row 256·i + p, column 256·k + l. -/
theorem ablk_adj (c : Dev nD) (t : Fin cfg1.N) (i k : Fin 16) (ht : t.val = 16 * i.val + k.val) (p l : Fin 256) :
    ablk V c 0 t (ix2 p l) = V c main_v1 (ix2 (col i p) (col k l)) := by
  show V c main_v1 (((cfg1.win 0).blk t).view.emb (ix2 p l)) = V c main_v1 (ix2 (col i p) (col k l))
  refine congrArg (V c main_v1) ?_
  obtain ⟨e0, e1, -⟩ := agg_idx t
  have hi := i.isLt; have hk := k.isLt
  funext a; apply Fin.ext
  match a with
  | ⟨0, _⟩ => show win1_0.index t (0 : Fin 2) * 256 + 1 * p.val = 256 * i.val + p.val; omega
  | ⟨1, _⟩ => show win1_0.index t (1 : Fin 2) * 256 + 1 * l.val = 256 * k.val + l.val; omega

/-- The support tile there, entry (l, q), is the support at row 256·k + l, column q. -/
theorem ablk_sup (c : Dev nD) (t : Fin cfg1.N) (i k : Fin 16) (ht : t.val = 16 * i.val + k.val) (l q : Fin 256) :
    ablk V c 1 t (ix2 l q) = V c main_v5 (ix2 (col k l) q) := by
  show V c main_v5 (((cfg1.win 1).blk t).view.emb (ix2 l q)) = V c main_v5 (ix2 (col k l) q)
  refine congrArg (V c main_v5) ?_
  obtain ⟨-, -, e2, e3, -⟩ := agg_idx t
  have hi := i.isLt; have hk := k.isLt
  funext a; apply Fin.ext
  match a with
  | ⟨0, _⟩ => show win1_1.index t (0 : Fin 2) * 256 + 1 * l.val = 256 * k.val + l.val; omega
  | ⟨1, _⟩ => show win1_1.index t (1 : Fin 2) * 256 + 1 * q.val = q.val; omega

/-- The bias row there is the bias row. -/
theorem ablk_bias (c : Dev nD) (t : Fin cfg1.N) (z : Fin 1) (q : Fin 256) :
    ablk V c 2 t (ix2 z q) = V c main_v4 (ix2 z q) := by
  show V c main_v4 (((cfg1.win 2).blk t).view.emb (ix2 z q)) = V c main_v4 (ix2 z q)
  refine congrArg (V c main_v4) ?_
  obtain ⟨-, -, -, -, e4, e5, -⟩ := agg_idx t
  funext a; apply Fin.ext
  match a with
  | ⟨0, _⟩ => show win1_2.index t (0 : Fin 2) * 1 + 1 * z.val = z.val; omega
  | ⟨1, _⟩ => show win1_2.index t (1 : Fin 2) * 256 + 1 * q.val = q.val; omega

/-! ## The accumulator is the running sum -/

/-- After point 16·i + k the accumulator holds, at (p, q), the running sum of entry (256·i + p, q) after column block k. -/
theorem accAt_eq (c : Dev nD) : ∀ (n : ℕ) (hn : n < cfg1.N) (i k : Fin 16), n = 16 * i.val + k.val → ∀ p q : Fin 256,
    accAt V c n hn (ix2 p q) = partialSum (V c main_v1) (V c main_v5) (col i p) q k.val := by
  intro n
  induction n with
  | zero =>
    intro hn i k h0 p q
    have hi : i = 0 := Fin.ext (by have := i.isLt; have := k.isLt; show i.val = 0; omega)
    have hk : k = 0 := Fin.ext (by have := i.isLt; have := k.isLt; show k.val = 0; omega)
    subst hi hk
    rw [accAt_first V c ⟨0, hn⟩ (Nat.zero_mod _), accFirst_apply]
    show _ = partialSum (V c main_v1) (V c main_v5) (col 0 p) q 0
    rw [partialSum_zero]
    refine congrArg (0 + ·) (Finset.sum_congr rfl fun l _ => ?_)
    rw [ablk_adj V c ⟨0, hn⟩ 0 0 rfl p l, ablk_sup V c ⟨0, hn⟩ 0 0 rfl l q]
  | succ n ih =>
    intro hn i k hik p q
    obtain ⟨k, hk⟩ := k
    cases k with
    | zero =>
      have hmod : (n + 1) % 16 = 0 := by have := i.isLt; simp only at hik; omega
      rw [accAt_first V c ⟨n + 1, hn⟩ hmod, accFirst_apply]
      show _ = partialSum (V c main_v1) (V c main_v5) (col i p) q 0
      rw [partialSum_zero]
      refine congrArg (0 + ·) (Finset.sum_congr rfl fun l _ => ?_)
      rw [ablk_adj V c ⟨n + 1, hn⟩ i ⟨0, hk⟩ hik p l, ablk_sup V c ⟨n + 1, hn⟩ i ⟨0, hk⟩ hik l q]
      rfl
    | succ k' =>
      have hmod : ¬(n + 1) % 16 = 0 := by have := i.isLt; simp only at hik; omega
      have hk' : k' < 16 := by omega
      have hprev : n = 16 * i.val + (⟨k', hk'⟩ : Fin 16).val := by simp only at hik ⊢; omega
      rw [accAt_next V c ⟨n + 1, hn⟩ hmod, accNext_apply]
      show accAt V c n _ (ix2 p q) + _ = partialSum (V c main_v1) (V c main_v5) (col i p) q (k' + 1)
      rw [ih (Nat.lt_of_succ_lt hn) i ⟨k', hk'⟩ hprev p q, partialSum_succ _ _ _ _ k' hk]
      refine congrArg (_ + ·) (Finset.sum_congr rfl fun l _ => ?_)
      rw [ablk_adj V c ⟨n + 1, hn⟩ i ⟨k' + 1, hk⟩ hik p l, ablk_sup V c ⟨n + 1, hn⟩ i ⟨k' + 1, hk⟩ hik l q]

/-! ## From the write-backs to the array -/

/-- What a last column block's point writes back is its row block of `blockedOf`. -/
theorem agg_flushed (c : Dev nD) (t : Fin cfg1.N) (hf : (cfg1.win 3).flush t = true) :
    (adat V c).flushed 3 t = ((cfg1.win 3).blk t).view.read (Elt Ideal) (blockedOf (V c main_v1) (V c main_v5) (V c main_v4)) := by
  have h15 : t.val % 16 = 15 := (flush1_3 t).mp hf
  have hN : t.val < 256 := lt_of_lt_of_eq t.isLt (show cfg1.N = 256 from N_1)
  have hi16 : t.val / 16 < 16 := by omega
  have ht : t.val = 16 * (⟨t.val / 16, hi16⟩ : Fin 16).val + (⟨15, by decide⟩ : Fin 16).val := by simp only; omega
  show (cfg1.win 3).cut (grid1.coords t) ((adat V c).after 3 t) = _
  rw [aafter_out]
  funext j
  obtain ⟨p, q, rfl⟩ : ∃ (p q : Fin 256), j = ix2 p q := ⟨j 0, j 1, eq_ix2 j⟩
  show outAt V c t.val t.isLt (ix2 p q) = blockedOf (V c main_v1) (V c main_v5) (V c main_v4) (((cfg1.win 3).blk t).view.emb (ix2 p q))
  have hemb : ((cfg1.win 3).blk t).view.emb (ix2 p q) = ix2 (col ⟨t.val / 16, hi16⟩ p) q := by
    obtain ⟨-, -, -, -, -, -, e6, e7⟩ := agg_idx t
    funext a; apply Fin.ext
    match a with
    | ⟨0, _⟩ => show win1_3.index t (0 : Fin 2) * 256 + 1 * p.val = 256 * (t.val / 16) + p.val; omega
    | ⟨1, _⟩ => show win1_3.index t (1 : Fin 2) * 256 + 1 * q.val = q.val; omega
  rw [hemb, blockedOf_ix2]
  unfold outAt
  rw [withBias_apply, accAt_eq V c t.val t.isLt ⟨t.val / 16, hi16⟩ ⟨15, by decide⟩ ht p q, ablk_bias V c t 0 q]

/-- An index of the result array is in point `t`'s output block iff each coordinate is in the block's range. -/
theorem agg_mem_blk (t : Fin cfg1.N) (i : S4096x256.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v6).slice (win1_3.rect t)).set ↔ _
  rw [View.set_slice_whole, Rect.mem_set_unit]
  exact Iff.rfl

/-- The sixteen written-back blocks tile the result array: row r is in the block written at point 16·(r / 256) + 15. -/
theorem agg_cover (i : S4096x256.Idx) : ∃ t : Fin cfg1.N, (cfg1.win 3).flush t = true ∧ i ∈ ((cfg1.win 3).blk t).view.set := by
  have hi0 : (i 0).val < 4096 := (i 0).isLt
  have hi1 : (i 1).val < 256 := (i 1).isLt
  have hN : cfg1.N = 256 := N_1
  let t : Fin cfg1.N := ⟨16 * ((i 0).val / 256) + 15, by omega⟩
  have htv : t.val = 16 * ((i 0).val / 256) + 15 := rfl
  refine ⟨t, (flush1_3 t).mpr (by omega), ?_⟩
  rw [agg_mem_blk]
  obtain ⟨-, -, -, -, -, -, e6, e7⟩ := agg_idx t
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 256 ≤ (i 1).val ∧ (i 1).val < win1_3.index t (1 : Fin 2) * 256 + 256; omega

/-- THE RESULT ARRAY after the region: adj · s + b accumulated block by block, of the arrays the region found. -/
theorem agg_final (c : Dev nD) :
    (adat V c).arrAt 3 cfg1.N = blockedOf (V c main_v1) (V c main_v5) (V c main_v4) :=
  (adat V c).arrAt_eq_of_cover 3 _ (fun t hf => agg_flushed V c t hf) agg_cover

end Cert.ReferenceIdeal.Hand

end
-- ==== Proof.RSupportValue.lean ====
/-
  The value of the reference's first region: when its sixteen points have run, the output array holds the support
  s = x · W of the two arrays the region read, s[l, j] = Σ_k x[l, k] · W[k, j].

  Three steps.
  * What one point leaves in its output block, read at an entry (p, q) of the block: the body multiplies the block of
    256 feature rows by the whole weight into a zero accumulator, so the entry is Σ_k rows[p, k] · weight[k, q]
    (`rowsTimesWeight_ix2`): the sum over the one contracted axis, whose positions are the numbers below 256.
  * What point t writes back is block t of the support (`support_flushed`): the feature rows' block and the output
    block sit at the same block row of their arrays and span all 256 columns, the weight's block is the whole weight;
    an entry of a block stands at (block index × 256 + the coordinate inside the block) on each axis.
  * The sixteen blocks of 256 rows cover the 4096 rows: row r is in block r / 256 (`support_cover`). So the array ends
    holding the support everywhere (`support_final`).
-/
import proofs.«110210_g2000605683403900_pallasbulk_842_20_alg».proof.Proof.RSupport
import proofs.«110210_g2000605683403900_pallasbulk_842_20_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## One point's output block at an entry -/

/-- The whole-block rectangle starts at zero on both axes. -/
theorem zeroOffsets : (![0, 0] : Fin 2 → Nat) = fun _ => 0 := funext fun a => by fin_cases a <;> rfl

/-- Entry (p, q) of the block a point leaves: the p-th of its feature rows against the q-th column of the weight. -/
theorem rowsTimesWeight_ix2 (x0 x1 : Vec Ideal S256x256 .f32) (p q : Fin 256) :
    rowsTimesWeight (F := Ideal) x0 x1 (ix2 p q) = ∑ k : Fin 256, (x0 (ix2 p k) : EReal) * (x1 (ix2 k q) : EReal) := by
  -- the one store covers the block, the two loads read the whole blocks, the two casts change nothing
  unfold rowsTimesWeight
  rw [View.canon_unit_zero zeroOffsets]
  simp only [View.ld_unit_zero (S := S256x256) zeroOffsets]
  unfold k0_pay1
  simp only [shapeCast_self]
  -- the product into the zero accumulator is the sum over the contracted axis, re-indexed by the numbers below 256
  show FloatOps.matmul (F := Ideal) dot_S256x256_S256x256_S256x256_1_0_0_1_n_n none (x0 : FVec Ideal S256x256 .f32) (x1 : FVec Ideal S256x256 .f32) (constant S256x256 .f32 0x00000000#32) (ix2 p q) = _
  rw [Ideal.matmul_constant_zero_apply,
    ← Equiv.sum_comp (contrEquiv1 dot_S256x256_S256x256_S256x256_1_0_0_1_n_n 256 rfl rfl).symm]
  refine Finset.sum_congr rfl fun k _ => ?_
  have ck := contrEquiv1_symm_val dot_S256x256_S256x256_S256x256_1_0_0_1_n_n 256 rfl rfl k
  -- the left operand is read at (p, k): its second axis is the contracted one
  have hl : dot_S256x256_S256x256_S256x256_1_0_0_1_n_n.lhsIdx (ix2 p q)
      ((contrEquiv1 dot_S256x256_S256x256_S256x256_1_0_0_1_n_n 256 rfl rfl).symm k) = ix2 p k := by
    funext ax; apply Fin.ext
    match ax with
    | ⟨0, _⟩ => simp [DotDims.lhsIdx, dot_S256x256_S256x256_S256x256_1_0_0_1_n_n]; rfl
    | ⟨1, _⟩ => simp [DotDims.lhsIdx, dot_S256x256_S256x256_S256x256_1_0_0_1_n_n]; exact ck
  -- the right operand is read at (k, q): its first axis is the contracted one
  have hr : dot_S256x256_S256x256_S256x256_1_0_0_1_n_n.rhsIdx (ix2 p q)
      ((contrEquiv1 dot_S256x256_S256x256_S256x256_1_0_0_1_n_n 256 rfl rfl).symm k) = ix2 k q := by
    funext ax; apply Fin.ext
    match ax with
    | ⟨0, _⟩ => simp [DotDims.rhsIdx, dot_S256x256_S256x256_S256x256_1_0_0_1_n_n]; exact ck
    | ⟨1, _⟩ => simp [DotDims.rhsIdx, dot_S256x256_S256x256_S256x256_1_0_0_1_n_n]; rfl
  rw [hl, hr]

/-! ## From the blocks to the array -/

/-- The three windows' block indices, decided over the sixteen points: the feature rows' block and the output block
    are at the same block row, every other block index is zero, and the output's block row is below sixteen. -/
theorem index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every one of the sixteen block rows of the output is some point's. -/
theorem index_onto : ∀ q0 : Fin 16, ∃ t : Fin cfg0.N, win0_2.index t = ![q0.val, 0] :=
  (by decide +kernel : ∀ q0 : Fin 16, ∃ t : Fin grid0.N, win0_2.index t = ![q0.val, 0])

section Region

variable (V : (c : Dev nD) → (b : Ref sig .tc) → Buf (Elt Ideal) ((c : Thread nD τ).loc b))

/-- What point `t` writes back is block `t` of the support of the two arrays as the region finds them. -/
theorem support_flushed (c : Dev nD) (t : Fin cfg0.N) :
    (sdat (F := Ideal) V c).flushed 2 t
      = ((cfg0.win 2).blk t).view.read (Elt Ideal) (Cert.Gcn.support (V c main_v0) (V c main_v2)) := by
  show (cfg0.win 2).cut (grid0.coords t) ((sdat V c).after 2 t) = _
  rw [safter_out]
  funext j
  obtain ⟨e0, e1, e2, e3, e4, e5⟩ := index_facts t
  have hj0 : (j 0).val < 256 := (j 0).isLt
  have hj1 : (j 1).val < 256 := (j 1).isLt
  -- the entry's coordinates (p, q) inside the block, and the row r of the array that p stands for
  obtain ⟨p, hp⟩ : ∃ p : Fin 256, p.val = (j 0).val := ⟨⟨(j 0).val, hj0⟩, rfl⟩
  obtain ⟨q, hq⟩ : ∃ q : Fin 256, q.val = (j 1).val := ⟨⟨(j 1).val, hj1⟩, rfl⟩
  obtain ⟨r, hr⟩ : ∃ r : Fin 4096, r.val = win0_2.index t (0 : Fin 2) * 256 + (j 0).val :=
    ⟨⟨win0_2.index t (0 : Fin 2) * 256 + (j 0).val, by omega⟩, rfl⟩
  have hx : (cfg0.win 2).xinj (grid0.coords t) j = ix2 p q := by
    funext a; apply Fin.ext
    match a with
    | ⟨0, _⟩ => exact hp.symm
    | ⟨1, _⟩ => exact hq.symm
  -- the entry stands at (r, q) of the output array
  have hE : ((cfg0.win 2).blk t).view.emb j = (ix2 r q : S4096x256.Idx) := by
    funext a; apply Fin.ext
    match a with
    | ⟨0, _⟩ => show win0_2.index t (0 : Fin 2) * 256 + 1 * (j 0).val = r.val; omega
    | ⟨1, _⟩ => show win0_2.index t (1 : Fin 2) * 256 + 1 * (j 1).val = q.val; omega
  show rowsTimesWeight (sblk V c 0 t) (sblk V c 1 t) ((cfg0.win 2).xinj (grid0.coords t) j)
    = Cert.Gcn.support (V c main_v0) (V c main_v2) (((cfg0.win 2).blk t).view.emb j)
  rw [hx, hE, rowsTimesWeight_ix2, Cert.Gcn.support_ix2]
  unfold Cert.Gcn.supportAt
  refine Finset.sum_congr rfl fun k _ => ?_
  -- entry (p, k) of the feature rows' block is entry (r, k) of the features
  have h0 : sblk V c 0 t (ix2 p k) = V c main_v0 (ix2 r k : S4096x256.Idx) := by
    show V c main_v0 (((cfg0.win 0).blk t).view.emb (ix2 p k)) = V c main_v0 (ix2 r k : S4096x256.Idx)
    refine congrArg _ ?_
    funext a; apply Fin.ext
    match a with
    | ⟨0, _⟩ => show win0_0.index t (0 : Fin 2) * 256 + 1 * p.val = r.val; omega
    | ⟨1, _⟩ => show win0_0.index t (1 : Fin 2) * 256 + 1 * k.val = k.val; omega
  -- entry (k, q) of the weight's block is entry (k, q) of the weight
  have h1 : sblk V c 1 t (ix2 k q) = V c main_v2 (ix2 k q : S256x256.Idx) := by
    show V c main_v2 (((cfg0.win 1).blk t).view.emb (ix2 k q)) = V c main_v2 (ix2 k q : S256x256.Idx)
    refine congrArg _ ?_
    funext a; apply Fin.ext
    match a with
    | ⟨0, _⟩ => show win0_1.index t (0 : Fin 2) * 256 + 1 * k.val = k.val; omega
    | ⟨1, _⟩ => show win0_1.index t (1 : Fin 2) * 256 + 1 * q.val = q.val; omega
  rw [h0, h1]

end Region

/-- An index of the output array is in point `t`'s block iff each coordinate is in the block's range on its axis. -/
theorem mem_outBlock (t : Fin cfg0.N) (i : S4096x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v5).slice (win0_2.rect t)).set ↔ _
  rw [View.set_slice_whole, Rect.mem_set_unit]
  exact Iff.rfl

/-- Every index of the output array is in the block some point writes back: row r is in block row r / 256. -/
theorem support_cover (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  obtain ⟨t, ht⟩ := index_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_outBlock]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- After the region's sixteen points the output array holds the support x · W of the two arrays the region read. -/
theorem support_final (V : (c : Dev nD) → (b : Ref sig .tc) → Buf (Elt Ideal) ((c : Thread nD τ).loc b)) (c : Dev nD) :
    (sdat (F := Ideal) V c).arrAt 2 cfg0.N = Cert.Gcn.support (V c main_v0) (V c main_v2) :=
  (sdat V c).arrAt_eq_of_cover 2 (Cert.Gcn.support (V c main_v0) (V c main_v2))
    (fun t _ => support_flushed V c t) (fun i => support_cover i)

end Cert.ReferenceIdeal.Hand

end
-- ==== Proof.RHost.lean ====
/-
  What the two regions find in their operand arrays. Before the first region @main only re-lays the arguments: each
  of the features, the adjacency and the weight passes through a pad whose low, high and interior widths are all zero,
  which returns its operand; the bias vector is reshaped to one row and passes through such a pad. So the support region
  finds the features and the weight themselves, and the aggregation region the adjacency itself and the bias as a row.
-/
import proofs.«110210_g2000605683403900_pallasbulk_842_20_alg».proof.Proof.Gen.ReferenceIdeal.Launch
import proofs.«110210_g2000605683403900_pallasbulk_842_20_alg».proof.Proof.Gen.ReferenceIdeal.Skeleton
import proofs.«110210_g2000605683403900_pallasbulk_842_20_alg».proof.Proof.Gen.ReferenceIdeal.Points
import proofs.«110210_g2000605683403900_pallasbulk_842_20_alg».proof.Proof.Gen.ReferenceIdeal.Regions
import proofs.«110210_g2000605683403900_pallasbulk_842_20_alg».proof.Proof.HostPad
import proofs.«110210_g2000605683403900_pallasbulk_842_20_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The padded features are the features. -/
theorem entry_features (c : Dev nD) : V8 m c main_v0 = m ((c : Thread nD τ).loc main_arg0) := by
  rw [V8_of m c main_v0 (by decide), V7_of m c main_v0 (by decide), V6_of m c main_v0 (by decide), V5_of m c main_v0 (by decide), V4_of m c main_v0 (by decide), V3_of m c main_v0 (by decide)]
  show StableHlo.after hostOps0_1 (V1 m c) (Proc.devRef .tc main_v0) = _
  after_results
  show pad S4096x256 ![0, 0] ![0, 0] ![0, 0] (m ((c : Thread nD τ).loc main_arg0) : S4096x256.Idx → EReal) _ pads_S4096x256_S4096x256_000_000 h_S_ = _
  exact Cert.Gcn.pad_zero_width _ _ _ _

/-- The padded adjacency is the adjacency. -/
theorem entry_adjacency (c : Dev nD) : V8 m c main_v1 = m ((c : Thread nD τ).loc main_arg1) := by
  rw [V8_of m c main_v1 (by decide), V7_of m c main_v1 (by decide), V6_of m c main_v1 (by decide), V5_of m c main_v1 (by decide)]
  show StableHlo.after hostOps0_3 (V3 m c) (Proc.devRef .tc main_v1) = _
  after_results
  show pad S4096x4096 ![0, 0] ![0, 0] ![0, 0] (m ((c : Thread nD τ).loc main_arg1) : S4096x4096.Idx → EReal) _ pads_S4096x4096_S4096x4096_000_000 h_S_ = _
  exact Cert.Gcn.pad_zero_width _ _ _ _

/-- The padded weight is the weight. -/
theorem entry_weight (c : Dev nD) : V8 m c main_v2 = m ((c : Thread nD τ).loc main_arg2) := by
  rw [V8_of m c main_v2 (by decide), V7_of m c main_v2 (by decide)]
  show StableHlo.after hostOps0_5 (V5 m c) (Proc.devRef .tc main_v2) = _
  after_results
  show pad S256x256 ![0, 0] ![0, 0] ![0, 0] (m ((c : Thread nD τ).loc main_arg2) : S256x256.Idx → EReal) _ pads_S256x256_S256x256_000_000 h_S_ = _
  exact Cert.Gcn.pad_zero_width _ _ _ _

/-- The padded one-row reshape of the bias is the bias laid out as a row. -/
theorem entry_bias (c : Dev nD) : V8 m c main_v4 = Cert.Gcn.rowOf (m ((c : Thread nD τ).loc main_arg3)) := by
  show StableHlo.after hostOps0_7 (V7 m c) (Proc.devRef .tc main_v4) = _
  after_results
  show pad S1x256 ![0, 0] ![0, 0] ![0, 0] (shapeCast S1x256 (m ((c : Thread nD τ).loc main_arg3) : S256.Idx → EReal) shapeCasts_S256_S1x256) _ pads_S1x256_S1x256_000_000 h_S_ = _
  rw [Cert.Gcn.pad_zero_width]
  exact Cert.Gcn.row_of_vector _ _

end Cert.ReferenceIdeal.Hand

end
-- ==== Proof.RFinal.lean ====
/-
  The reference's result as a function of its arguments. The run of @main leaves the result array at what the aggregation
  region's write-backs leave; that is adj · s + b accumulated block by block over the arrays the region found; the
  adjacency and the bias row it found are the arguments themselves (the host prefix only re-lays them), and the support s
  it found is what the support region's write-backs left, x · W of the features and the weight as given. Together: the
  result is the specification's blocked arrangement of the four arguments.
-/
import proofs.«110210_g2000605683403900_pallasbulk_842_20_alg».proof.Proof.RRun
import proofs.«110210_g2000605683403900_pallasbulk_842_20_alg».proof.Proof.RAggValue
import proofs.«110210_g2000605683403900_pallasbulk_842_20_alg».proof.Proof.RSupportValue
import proofs.«110210_g2000605683403900_pallasbulk_842_20_alg».proof.Proof.RHost

set_option maxRecDepth 16384

noncomputable section

namespace Cert.ReferenceIdeal.Hand

open Cert.ReferenceIdeal Cert.ReferenceIdeal.Gen
open Idealize.ShloMosaic Idealize.ShloMosaic.TcCoe
open Idealize.SL.Sem

variable (m : (ℓ : Loc nD τ sig) → Buf (Elt Ideal) ℓ) (ρ : Dev nD → PrngReg)

/-- What the aggregation region's write-backs leave is the blocked arrangement of the arguments. -/
theorem result_eq (c : Dev nD) :
    (adat (V9r m) c).arrAt 3 cfg1.N
      = Cert.Gcn.blocked (m ((c.tc : Thread nD τ).loc main_arg1)) (m ((c.tc : Thread nD τ).loc main_arg0))
          (m ((c.tc : Thread nD τ).loc main_arg2)) (Cert.Gcn.rowOf (m ((c.tc : Thread nD τ).loc main_arg3))) := by
  have e1 : V9r m c main_v1 = m ((c.tc : Thread nD τ).loc main_arg1) :=
    (W9_of_ne' m c main_v1 (by decide)).trans (entry_adjacency m c)
  have e4 : V9r m c main_v4 = Cert.Gcn.rowOf (m ((c.tc : Thread nD τ).loc main_arg3)) :=
    (W9_of_ne' m c main_v4 (by decide)).trans (entry_bias m c)
  have e0 : V8r m c main_v0 = m ((c.tc : Thread nD τ).loc main_arg0) := entry_features m c
  have e2 : V8r m c main_v2 = m ((c.tc : Thread nD τ).loc main_arg2) := entry_weight m c
  have e5 : V9r m c main_v5 = Cert.Gcn.support (m ((c.tc : Thread nD τ).loc main_arg0)) (m ((c.tc : Thread nD τ).loc main_arg2)) :=
    (W9_arr m c 2).trans ((support_final (V8r m) c).trans (by rw [e0, e2]))
  rw [agg_final (V9r m) c, e1, e5, e4]
  rfl

/-- THE REFERENCE'S RUN, READ: every weakly fair execution terminates, the result is the blocked arrangement of the
    arguments, and the arguments end as launched. -/
theorem value_run : θ_run (defs (F := Ideal)) (onTc (τ := τ) (main (F := Ideal))) ⟨m, fun _ => 0, ρ⟩ (fun r => ∀ c : Dev nD,
      r.2.mem ((c.tc : Thread nD τ).loc main_v6)
        = Cert.Gcn.blocked (m ((c.tc : Thread nD τ).loc main_arg1)) (m ((c.tc : Thread nD τ).loc main_arg0))
            (m ((c.tc : Thread nD τ).loc main_arg2)) (Cert.Gcn.rowOf (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m c), (h c).2⟩) (run m ρ)

end Cert.ReferenceIdeal.Hand

end
-- ==== Proof.Algebra.lean ====
/-
  The two arrangements of one graph-convolution layer agree wherever every entry of the adjacency, the features and
  the weight is a real number.

  Three facts, in this order.
  * The running value after the last of the sixteen column blocks is the sum of the sixteen block shares: the start
    value zero is neutral, and each step adds the next share. This holds in the extended reals as they are (a
    commutative additive monoid); nothing needs to be finite.
  * A sum over the 4096 columns is the sum over the sixteen blocks of the sums over the 256 columns of a block:
    (n, l) ↦ 256 n + l is a bijection of Fin 16 × Fin 256 onto Fin 4096, with inverse c ↦ (c / 256, c % 256).
  * With real entries, Σ_k (Σ_l a_l · x_lk) · w_k = Σ_l a_l · (Σ_k x_lk · w_k): both sides are the coercion of a real
    number (the coercion carries products to products and finite sums to finite sums), and in the reals the
    products distribute over the sums and the two finite sums exchange.
  The bias is added last on both sides and plays no part.
-/
import proofs.«110210_g2000605683403900_pallasbulk_842_20_alg».proof.Proof.Spec
import Mathlib.Algebra.BigOperators.Fin
import Mathlib.Algebra.BigOperators.Ring.Finset
import Mathlib.Data.EReal.Operations
import Mathlib.Tactic.Ring

noncomputable section

open scoped BigOperators

namespace Cert.Gcn

open Idealize.ShloMosaic Idealize.ShloMosaic.ValueIdx

/-! ## The coercion of the reals and finite sums -/

/-- The coercion of the reals into the extended reals carries a finite sum to the finite sum of the coercions. -/
theorem coe_sum {ι : Type*} (t : Finset ι) (f : ι → ℝ) : ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-! ## The running value is the sum of the block shares -/

section Blocks

variable (adj : SA.Idx → EReal) (s : SX.Idx → EReal) (r : Fin 4096) (j : Fin 256)

/-- Block `m`'s share, read at a natural number: nothing past the last block. -/
def shareAt (m : ℕ) : EReal := if h : m < 16 then blockDot adj s r j ⟨m, h⟩ else 0

/-- After block `n` the running value is the sum of the shares of the blocks 0, …, n. -/
theorem partialSum_eq_sum_range (n : ℕ) :
    partialSum adj s r j n = ∑ m ∈ Finset.range (n + 1), shareAt adj s r j m := by
  induction n with
  | zero =>
    rw [partialSum_zero, zero_add, Finset.sum_range_one]
    show _ = (if h : 0 < 16 then blockDot adj s r j ⟨0, h⟩ else 0)
    rw [dif_pos (by omega)]
    rfl
  | succ n ih =>
    rw [Finset.sum_range_succ, ← ih]
    rfl

/-- After the last block the running value is the sum of all sixteen shares. -/
theorem partialSum_last : partialSum adj s r j 15 = ∑ n : Fin 16, blockDot adj s r j n := by
  rw [partialSum_eq_sum_range, Finset.sum_range]
  refine Finset.sum_congr rfl fun n _ => ?_
  show (if h : n.val < 16 then blockDot adj s r j ⟨n.val, h⟩ else 0) = _
  rw [dif_pos n.isLt]

end Blocks

/-! ## 4096 columns are sixteen blocks of 256 -/

/-- (n, l) ↦ 256 n + l, a bijection of the sixteen blocks of 256 columns onto the 4096 columns. -/
def colEquiv : Fin 16 × Fin 256 ≃ Fin 4096 where
  toFun p := col p.1 p.2
  invFun c := (⟨c.val / 256, by have := c.isLt; omega⟩, ⟨c.val % 256, by omega⟩)
  left_inv p := by
    obtain ⟨n, l⟩ := p
    have hn := n.isLt
    have hl := l.isLt
    refine Prod.ext (Fin.ext ?_) (Fin.ext ?_)
    · show (256 * n.val + l.val) / 256 = n.val
      omega
    · show (256 * n.val + l.val) % 256 = l.val
      omega
  right_inv c := by
    refine Fin.ext ?_
    show 256 * (c.val / 256) + c.val % 256 = c.val
    omega

/-- A sum over the 4096 columns is the sum over the blocks of the sums over each block's columns. -/
theorem sum_col {M : Type*} [AddCommMonoid M] (g : Fin 4096 → M) :
    ∑ c : Fin 4096, g c = ∑ n : Fin 16, ∑ l : Fin 256, g (col n l) := by
  rw [← Equiv.sum_comp colEquiv g, Fintype.sum_prod_type]
  rfl

/-! ## The law in the reals -/

/-- Distributing the products over the sums and exchanging the two finite sums. -/
theorem real_law {κ ι : Type*} [Fintype κ] [Fintype ι] (a : ι → ℝ) (X : ι → κ → ℝ) (W : κ → ℝ) :
    ∑ k, (∑ l, a l * X l k) * W k = ∑ l, a l * ∑ k, X l k * W k := by
  simp_rw [Finset.sum_mul, Finset.mul_sum]
  rw [Finset.sum_comm]
  refine Finset.sum_congr rfl fun l _ => Finset.sum_congr rfl fun k _ => ?_
  ring

/-! ## The two arrangements agree -/

section Agree

variable (adj : SA.Idx → EReal) (x : SX.Idx → EReal) (w : SW.Idx → EReal) (b : SB.Idx → EReal)

/-- Entry by entry, with real entries. -/
theorem fusedAt_eq_blockedAt
    (hadj : ∀ i, ∃ r : ℝ, adj i = (r : EReal)) (hx : ∀ i, ∃ r : ℝ, x i = (r : EReal)) (hw : ∀ i, ∃ r : ℝ, w i = (r : EReal))
    (r : Fin 4096) (j : Fin 256) : fusedAt adj x w b r j = blockedAt adj x w b r j := by
  choose A hA using hadj
  choose X hX using hx
  choose W hW using hw
  unfold fusedAt blockedAt
  congr 1
  rw [partialSum_last]
  unfold blockDot
  rw [← sum_col (fun c => adj (ix2 r c) * support x w (ix2 c j))]
  simp only [support_ix2]
  unfold supportAt
  simp only [hA, hX, hW, ← EReal.coe_mul, ← coe_sum]
  exact congrArg _ (real_law (fun l => A (ix2 r l)) (fun l k => X (ix2 l k)) (fun k => W (ix2 k j)))

end Agree

/-- (adj · x) · W + b and the block-by-block accumulation of adj · (x · W) + b are the same array wherever every entry
    of adj, x and W is a real number. -/
theorem fused_eq_blocked (adj : SA.Idx → EReal) (x : SX.Idx → EReal) (w : SW.Idx → EReal) (b : SB.Idx → EReal)
    (hadj : ∀ i, ∃ r : ℝ, adj i = (r : EReal)) (hx : ∀ i, ∃ r : ℝ, x i = (r : EReal)) (hw : ∀ i, ∃ r : ℝ, w i = (r : EReal)) :
    fused adj x w b = blocked adj x w b := by
  funext i
  exact fusedAt_eq_blockedAt adj x w b hadj hx hw (i 0) (i 1)

end Cert.Gcn

end
-- ==== Proof.Finite.lean ====
/-
  From the precondition to "every entry of the features, the adjacency and the weight is a real number".

  The precondition says that the conjunction of four tests is true, one per argument array: every entry x of the
  array satisfies |x| < +∞, where |x| is max x (−x) and +∞ is what the word 0x7F800000 denotes in the 32-bit
  format. A conjunction of bits is 1 only if each bit is; a test that reduces an array of bits by "and" over all
  its axes is 1 only if every bit of the array is; and an extended real x with max x (−x) < ⊤ is neither ⊤ nor ⊥
  (at either of them the maximum is ⊤), so it is a real number.
-/
import proofs.«110210_g2000605683403900_pallasbulk_842_20_alg».proof.Defs
import Idealize.ShloMosaic.Lib.ReduceAll
import Idealize.ShloMosaic.Lib.ValueIdx

noncomputable section

namespace Cert.Gcn

open Idealize.ShloMosaic Idealize.SL.Sem

/-- The scalar shape has one index. -/
instance : Subsingleton Cert.Pre_finite_inputs.S_.Idx := ⟨fun a b => funext fun d => d.elim0⟩

/-- An extended real whose absolute value max x (−x) compares below the word 0x7F800000 (which denotes +∞) is a
    real number: at ⊤ and at ⊥ the absolute value is ⊤. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- Under the precondition every entry of the first three argument arrays (the features, the adjacency, the weight)
    is a real number, on every device. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread _ _).loc Cert.KernelIdeal.main_arg0) i = (r : EReal))
    ∧ (∀ i, ∃ r : ℝ, m ((c.tc : Thread _ _).loc Cert.KernelIdeal.main_arg1) i = (r : EReal))
    ∧ (∀ i, ∃ r : ℝ, m ((c.tc : Thread _ _).loc Cert.KernelIdeal.main_arg2) i = (r : EReal)) := by
  -- the precondition at this device, read at the scalar result's one index
  have h0 := congrFun (h c) ValueIdx.ix0
  dsimp only [Cert.Pre_finite_inputs.fn, Cert.Pre_finite_inputs.fn_part1] at h0
  -- the conjunction of the four tests, bit by bit
  change IntOp.andi (IntOp.andi (IntOp.andi _ _) _) _ = 1#1 at h0
  rw [IntOp.andi_eq_one, IntOp.andi_eq_one, IntOp.andi_eq_one] at h0
  obtain ⟨⟨⟨h1, h2⟩, h3⟩, -⟩ := h0
  -- each test is an "and" over all entries, so it holds at every entry; there it says |x| < +∞
  refine ⟨fun i => ?_, fun i => ?_, fun i => ?_⟩
  · exact real_of_abs_lt_inf _ (Host.reduce_andi_all _ _ _ _ _ h1 i)
  · exact real_of_abs_lt_inf _ (Host.reduce_andi_all _ _ _ _ _ h2 i)
  · exact real_of_abs_lt_inf _ (Host.reduce_andi_all _ _ _ _ _ h3 i)

end Cert.Gcn

end
-- ==== Proof.lean ====
/-
  One graph-convolution layer on a dense normalized adjacency, out = adj · x · W + b (4096 nodes, 256 features in and out).

  The kernel multiplies the adjacency into the features first and the weight second, (adj · x) · W + b, in one region
  of eight row blocks; its roundings to bfloat16 on the way into the first product are the identity on the extended
  reals. The reference forms the support x · W in a first region and accumulates adj · (x · W) over sixteen column blocks
  of the adjacency in a second, adding b at the last block. Both are read, index by index, as functions of the four
  arguments (`Cert.Gcn.fused` and `Cert.Gcn.blocked`); the two functions agree wherever every entry of adj, x and W is a
  real number, because multiplication then distributes over the finite sums and a sum over 4096 columns is the sum of its
  sixteen blocks — and the precondition says exactly that every input is finite. The three frames are the programs'
  runs with the results dropped; the idealization rewrote nothing, so `preserves` is `True`.
-/
import proofs.«110210_g2000605683403900_pallasbulk_842_20_alg».proof.Defs
import proofs.«110210_g2000605683403900_pallasbulk_842_20_alg».proof.Proof.Gen.Kernel
import proofs.«110210_g2000605683403900_pallasbulk_842_20_alg».proof.Proof.Gen.Kernel.Frame
import proofs.«110210_g2000605683403900_pallasbulk_842_20_alg».proof.Proof.Gen.KernelIdeal
import proofs.«110210_g2000605683403900_pallasbulk_842_20_alg».proof.Proof.Gen.KernelIdeal.Frame
import proofs.«110210_g2000605683403900_pallasbulk_842_20_alg».proof.Proof.Gen.ReferenceIdeal
import proofs.«110210_g2000605683403900_pallasbulk_842_20_alg».proof.Proof.Gen.Pre_finite_inputs
import proofs.«110210_g2000605683403900_pallasbulk_842_20_alg».proof.Proof.KFinal
import proofs.«110210_g2000605683403900_pallasbulk_842_20_alg».proof.Proof.RFinal
import proofs.«110210_g2000605683403900_pallasbulk_842_20_alg».proof.Proof.Algebra
import proofs.«110210_g2000605683403900_pallasbulk_842_20_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Hand.value_run m ρ)

/-- The idealization rewrote no operation. -/
theorem preserves : Cert.preserves_Kernel_KernelIdeal := trivial

/-- From memories agreeing on the four arguments, all finite, the kernel ends at (adj · x) · W + b and the reference at
    adj · (x · W) + b accumulated block by block, of the same arguments: one function, by distributivity over the reals. -/
theorem algebraic : Cert.algebraic_KernelIdeal_ReferenceIdeal := by
  intro m ρ m' ρ' hpre hagree
  refine ⟨fun c => Cert.Gcn.fused (m ((c.tc : Thread _ _).loc Cert.KernelIdeal.main_arg1)) (m ((c.tc : Thread _ _).loc Cert.KernelIdeal.main_arg0))
      (m ((c.tc : Thread _ _).loc Cert.KernelIdeal.main_arg2)) (Cert.Gcn.rowOf (m ((c.tc : Thread _ _).loc Cert.KernelIdeal.main_arg3))),
    Cert.KernelIdeal.Hand.run m ρ, ?_⟩
  refine (θ_run Cert.ReferenceIdeal.defs _ _).mono (fun _ h c => ⟨(h c).1.trans ?_, (h c).2⟩)
    (Cert.ReferenceIdeal.Hand.value_run m' ρ')
  rw [(hagree c).1, (hagree c).2.1, (hagree c).2.2.1, (hagree c).2.2.2]
  obtain ⟨hx, hadj, hw⟩ := Cert.Gcn.real_of_pre m hpre c
  exact (Cert.Gcn.fused_eq_blocked _ _ _ _ hadj hx hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
